-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024x1024x42 : Shape := ⟨4, ![1, 1024, 1024, 42]⟩
abbrev S115x128 : Shape := ⟨2, ![115, 128]⟩
abbrev S1x1024 : Shape := ⟨2, ![1, 1024]⟩
abbrev S_ : Shape := ⟨0, ![]⟩

class Facts : Prop where
  bcast_S_S1x1024x1024x42 : S_.BroadcastsInDim S1x1024x1024x42 (![] : Fin 0 → Fin S1x1024x1024x42.rank)
  reducesTo_S1x1024x1024x42_S_d0_1_2_3 : S1x1024x1024x42.ReducesTo [0, 1, 2, 3] S_
  h_S_ : 0 < S_.numel
  bcast_S_S115x128 : S_.BroadcastsInDim S115x128 (![] : Fin 0 → Fin S115x128.rank)
  reducesTo_S115x128_S_d0_1 : S115x128.ReducesTo [0, 1] S_

variable [Facts]

def fn {F : FTy → Type} [FloatOps F] (main_arg0 : FVec F S1x1024x1024x42 .f32) (main_arg1 : FVec F S115x128 .f32) (main_arg2 : IVec S1x1024 32) (main_arg3 : IVec S1x1024 32) (main_arg4 : IVec S1x1024 32) (main_arg5 : IVec S1x1024 32) : IVec S_ 1 :=
  let main_v0 : FVec F S1x1024x1024x42 .f32 := Host.absf main_arg0
  let main_cst : FVec F S_ .f32 := constant S_ .f32 0x7F800000#32
  let main_v1 : FVec F S1x1024x1024x42 .f32 := broadcastInDim S1x1024x1024x42 ![] bcast_S_S1x1024x1024x42 main_cst
  let main_v2 : IVec S1x1024x1024x42 1 := cmpf .olt main_v0 main_v1
  let main_c : IVec S_ 1 := constantI S_ 1 1#1
  let main_v3 : IVec S_ 1 := (fun x v => Host.reduce IntOp.andi x v reducesTo_S1x1024x1024x42_S_d0_1_2_3 h_S_) main_v2 main_c
  let main_v4 : FVec F S115x128 .f32 := Host.absf main_arg1
  let main_cst_0 : FVec F S_ .f32 := constant S_ .f32 0x7F800000#32
  let main_v5 : FVec F S115x128 .f32 := broadcastInDim S115x128 ![] bcast_S_S115x128 main_cst_0
  let main_v6 : IVec S115x128 1 := cmpf .olt main_v4 main_v5
  let main_c_1 : IVec S_ 1 := constantI S_ 1 1#1
  let main_v7 : IVec S_ 1 := (fun x v => Host.reduce IntOp.andi x v reducesTo_S115x128_S_d0_1 h_S_) main_v6 main_c_1
  let main_v8 : IVec S_ 1 := andi main_v3 main_v7
  main_v8
-- ==== Kernel.lean ====
abbrev S1x1024x1024x42 : Shape := ⟨4, ![1, 1024, 1024, 42]⟩
abbrev S115x128 : Shape := ⟨2, ![115, 128]⟩
abbrev S1x1024 : Shape := ⟨2, ![1, 1024]⟩
abbrev S1024 : Shape := ⟨1, ![1024]⟩
abbrev S1024x1 : Shape := ⟨2, ![1024, 1]⟩
abbrev S66x128 : Shape := ⟨2, ![66, 128]⟩
abbrev S42x128 : Shape := ⟨2, ![42, 128]⟩
abbrev S1x128 : Shape := ⟨2, ![1, 128]⟩
abbrev S6x128 : Shape := ⟨2, ![6, 128]⟩
abbrev S1x1024x1024x128 : Shape := ⟨4, ![1, 1024, 1024, 128]⟩
abbrev S64x1 : Shape := ⟨2, ![64, 1]⟩
abbrev S1x64x64x42 : Shape := ⟨4, ![1, 64, 64, 42]⟩
abbrev S1x64x64x128 : Shape := ⟨4, ![1, 64, 64, 128]⟩
abbrev S64 : Shape := ⟨1, ![64]⟩
abbrev S1x64 : Shape := ⟨2, ![1, 64]⟩
abbrev S64x64 : Shape := ⟨2, ![64, 64]⟩
abbrev S64x64x66 : Shape := ⟨3, ![64, 64, 66]⟩
abbrev S64x64x1 : Shape := ⟨3, ![64, 64, 1]⟩
abbrev S4096x66 : Shape := ⟨2, ![4096, 66]⟩
abbrev S4096x128 : Shape := ⟨2, ![4096, 128]⟩
abbrev S64x64x42 : Shape := ⟨3, ![64, 64, 42]⟩
abbrev S4096x42 : Shape := ⟨2, ![4096, 42]⟩
abbrev S64x64x6 : Shape := ⟨3, ![64, 64, 6]⟩
abbrev S4096x6 : Shape := ⟨2, ![4096, 6]⟩
abbrev S64x64x128 : Shape := ⟨3, ![64, 64, 128]⟩
abbrev S128 : Shape := ⟨1, ![128]⟩
abbrev S1x1x128 : Shape := ⟨3, ![1, 1, 128]⟩

abbrev nBuf : Space → Nat
  | .hbm => 19
  | .vmem => 24
  | .smem => 0
  | _ => 0

abbrev bufTy : (tb : Table) → Fin (tcTables nBuf tb) → BufTy
  | .hbm, ⟨0, _⟩ => ⟨S1x1024x1024x42, .f32⟩
  | .hbm, ⟨1, _⟩ => ⟨S115x128, .f32⟩
  | .hbm, ⟨2, _⟩ => ⟨S1x1024, .i32⟩
  | .hbm, ⟨3, _⟩ => ⟨S1x1024, .i32⟩
  | .hbm, ⟨4, _⟩ => ⟨S1x1024, .i32⟩
  | .hbm, ⟨5, _⟩ => ⟨S1x1024, .i32⟩
  | .hbm, ⟨6, _⟩ => ⟨S1024, .i32⟩
  | .hbm, ⟨7, _⟩ => ⟨S1024x1, .i32⟩
  | .hbm, ⟨8, _⟩ => ⟨S1024, .i32⟩
  | .hbm, ⟨9, _⟩ => ⟨S1024x1, .i32⟩
  | .hbm, ⟨10, _⟩ => ⟨S1024, .i32⟩
  | .hbm, ⟨11, _⟩ => ⟨S1024x1, .i32⟩
  | .hbm, ⟨12, _⟩ => ⟨S1024, .i32⟩
  | .hbm, ⟨13, _⟩ => ⟨S1024x1, .i32⟩
  | .hbm, ⟨14, _⟩ => ⟨S66x128, .f32⟩
  | .hbm, ⟨15, _⟩ => ⟨S42x128, .f32⟩
  | .hbm, ⟨16, _⟩ => ⟨S1x128, .f32⟩
  | .hbm, ⟨17, _⟩ => ⟨S6x128, .f32⟩
  | .hbm, ⟨18, _⟩ => ⟨S1x1024x1024x128, .f32⟩
  | .local _ .vmem, ⟨0, _⟩ => ⟨S64x1, .i32⟩
  | .local _ .vmem, ⟨1, _⟩ => ⟨S64x1, .i32⟩
  | .local _ .vmem, ⟨2, _⟩ => ⟨S64x1, .i32⟩
  | .local _ .vmem, ⟨3, _⟩ => ⟨S64x1, .i32⟩
  | .local _ .vmem, ⟨4, _⟩ => ⟨S64x1, .i32⟩
  | .local _ .vmem, ⟨5, _⟩ => ⟨S64x1, .i32⟩
  | .local _ .vmem, ⟨6, _⟩ => ⟨S64x1, .i32⟩
  | .local _ .vmem, ⟨7, _⟩ => ⟨S64x1, .i32⟩
  | .local _ .vmem, ⟨8, _⟩ => ⟨S64x1, .i32⟩
  | .local _ .vmem, ⟨9, _⟩ => ⟨S64x1, .i32⟩
  | .local _ .vmem, ⟨10, _⟩ => ⟨S64x1, .i32⟩
  | .local _ .vmem, ⟨11, _⟩ => ⟨S64x1, .i32⟩
  | .local _ .vmem, ⟨12, _⟩ => ⟨S64x1, .i32⟩
  | .local _ .vmem, ⟨13, _⟩ => ⟨S64x1, .i32⟩
  | .local _ .vmem, ⟨14, _⟩ => ⟨S64x1, .i32⟩
  | .local _ .vmem, ⟨15, _⟩ => ⟨S64x1, .i32⟩
  | .local _ .vmem, ⟨16, _⟩ => ⟨S1x64x64x42, .f32⟩
  | .local _ .vmem, ⟨17, _⟩ => ⟨S1x64x64x42, .f32⟩
  | .local _ .vmem, ⟨18, _⟩ => ⟨S66x128, .f32⟩
  | .local _ .vmem, ⟨19, _⟩ => ⟨S42x128, .f32⟩
  | .local _ .vmem, ⟨20, _⟩ => ⟨S1x128, .f32⟩
  | .local _ .vmem, ⟨21, _⟩ => ⟨S6x128, .f32⟩
  | .local _ .vmem, ⟨22, _⟩ => ⟨S1x64x64x128, .f32⟩
  | .local _ .vmem, ⟨23, _⟩ => ⟨S1x64x64x128, .f32⟩
  | _, _ => ⟨S1x1024x1024x42, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S64x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S64x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S64x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S64x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x64x64x42 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S66x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S42x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S6x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x64x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

class Facts₀ : Prop where
  shapeCasts_S1x1024_S1024 : S1x1024.ShapeCasts S1024
  shapeCasts_S1024_S1024x1 : S1024.ShapeCasts S1024x1
  slices_S115x128_S66x128_0_0 : S115x128.Slices ![0, 0] S66x128
  slices_S115x128_S42x128_66_0 : S115x128.Slices ![66, 0] S42x128
  slices_S115x128_S1x128_108_0 : S115x128.Slices ![108, 0] S1x128
  slices_S115x128_S6x128_109_0 : S115x128.Slices ![109, 0] S6x128
  inb_S64x1_S64x1_0_0 : ∀ a, (![0, 0] : Fin 2 → Nat) a + S64x1.size a ≤ S64x1.size a
  h_S64x1 : 0 < S64x1.numel
  shapeCasts_S64x1_S64 : S64x1.ShapeCasts S64
  shapeCasts_S64_S64x1 : S64.ShapeCasts S64x1
  shapeCasts_S64_S1x64 : S64.ShapeCasts S1x64
  broadcasts_S64x1_S64x64 : S64x1.Broadcasts S64x64
  broadcasts_S1x64_S64x64 : S1x64.Broadcasts S64x64
  iota_S64x64x66_d2_w32 : S64x64x66.Iotas .tc 32 [2]
  shapeCasts_S64x64_S64x64x1 : S64x64.ShapeCasts S64x64x1
  broadcasts_S64x64x1_S64x64x66 : S64x64x1.Broadcasts S64x64x66
  natLt_1_32 : 1 < 32
  bitsLt_bf16_f32 : FTy.bits .bf16 < FTy.bits .f32
  shapeCasts_S64x64x66_S4096x66 : S64x64x66.ShapeCasts S4096x66
  inb_S66x128_S66x128_0_0 : ∀ a, (![0, 0] : Fin 2 → Nat) a + S66x128.size a ≤ S66x128.size a
  h_S66x128 : 0 < S66x128.numel
  shapeCasts_S66x128_S66x128 : S66x128.ShapeCasts S66x128
  inb_S1x64x64x42_S1x64x64x42_0_0_0_0 : ∀ a, (![0, 0, 0, 0] : Fin 4 → Nat) a + S1x64x64x42.size a ≤ S1x64x64x42.size a
  h_S1x64x64x42 : 0 < S1x64x64x42.numel
  shapeCasts_S1x64x64x42_S64x64x42 : S1x64x64x42.ShapeCasts S64x64x42
  shapeCasts_S64x64x42_S4096x42 : S64x64x42.ShapeCasts S4096x42
  inb_S42x128_S42x128_0_0 : ∀ a, (![0, 0] : Fin 2 → Nat) a + S42x128.size a ≤ S42x128.size a
  h_S42x128 : 0 < S42x128.numel
  shapeCasts_S42x128_S42x128 : S42x128.ShapeCasts S42x128
  iota_S64x64x6_d2_w32 : S64x64x6.Iotas .tc 32 [2]
  broadcasts_S64x64x1_S64x64x6 : S64x64x1.Broadcasts S64x64x6
  shapeCasts_S64x64x6_S4096x6 : S64x64x6.ShapeCasts S4096x6
  inb_S6x128_S6x128_0_0 : ∀ a, (![0, 0] : Fin 2 → Nat) a + S6x128.size a ≤ S6x128.size a
  h_S6x128 : 0 < S6x128.numel
  shapeCasts_S6x128_S6x128 : S6x128.ShapeCasts S6x128
  shapeCasts_S4096x128_S64x64x128 : S4096x128.ShapeCasts S64x64x128
  inb_S1x128_S1x128_0_0 : ∀ a, (![0, 0] : Fin 2 → Nat) a + S1x128.size a ≤ S1x128.size a
  h_S1x128 : 0 < S1x128.numel
  shapeCasts_S1x128_S128 : S1x128.ShapeCasts S128
  shapeCasts_S128_S1x1x128 : S128.ShapeCasts S1x1x128
  broadcasts_S64x64x1_S64x64x128 : S64x64x1.Broadcasts S64x64x128
  broadcasts_S1x1x128_S64x64x128 : S1x1x128.Broadcasts S64x64x128
  inb_S1x64x64x128_S1x64x64x128_0_0_0_0 : ∀ a, (![0, 0, 0, 0] : Fin 4 → Nat) a + S1x64x64x128.size a ≤ S1x64x64x128.size a
  h_S1x64x64x128 : 0 < S1x64x64x128.numel
  shapeCasts_S1x64x64x128_S64x64x128 : S1x64x64x128.ShapeCasts S64x64x128
  shapeCasts_S64x64x128_S1x64x64x128 : S64x64x128.ShapeCasts S1x64x64x128
  dot_S4096x66_S66x128_S4096x128_1_0_0_1_n_n_wf : DotDims.WF S4096x66 S66x128 S4096x128 [1] [0] [0] [1] [] []
  dot_S4096x42_S42x128_S4096x128_1_0_0_1_n_n_wf : DotDims.WF S4096x42 S42x128 S4096x128 [1] [0] [0] [1] [] []
  dot_S4096x6_S6x128_S4096x128_1_0_0_1_n_n_wf : DotDims.WF S4096x6 S6x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1.size a ≤ S1024x1.size a
  hwx0_0 : ∀ i : grid0.Coords, EltTy.bits .i32 = 32 ∨ (Rect.block (s := S1024x1) S64x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S1024x1.size a
  hwx0_1 : ∀ i : grid0.Coords, EltTy.bits .i32 = 32 ∨ (Rect.block (s := S1024x1) S64x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S1024x1.size a
  hwx0_2 : ∀ i : grid0.Coords, EltTy.bits .i32 = 32 ∨ (Rect.block (s := S1024x1) S64x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S1024x1.size a
  hwx0_3 : ∀ i : grid0.Coords, EltTy.bits .i32 = 32 ∨ (Rect.block (s := S1024x1) S64x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S1024x1.size a
  hwx0_4 : ∀ i : grid0.Coords, EltTy.bits .i32 = 32 ∨ (Rect.block (s := S1024x1) S64x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S1024x1.size a
  hwx0_5 : ∀ i : grid0.Coords, EltTy.bits .i32 = 32 ∨ (Rect.block (s := S1024x1) S64x1.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S1024x1.size a
  hwx0_6 : ∀ i : grid0.Coords, EltTy.bits .i32 = 32 ∨ (Rect.block (s := S1024x1) S64x1.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S1024x1.size a
  hwx0_7 : ∀ i : grid0.Coords, EltTy.bits .i32 = 32 ∨ (Rect.block (s := S1024x1) S64x1.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x64x42.size a ≤ S1x1024x1024x42.size a
  hwx0_8 : ∀ i : grid0.Coords, EltTy.bits .f32 = 32 ∨ (Rect.block (s := S1x1024x1024x42) S1x64x64x42.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S66x128.size a ≤ S66x128.size a
  hwx0_9 : ∀ i : grid0.Coords, EltTy.bits .f32 = 32 ∨ (Rect.block (s := S66x128) S66x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S42x128.size a ≤ S42x128.size a
  hwx0_10 : ∀ i : grid0.Coords, EltTy.bits .f32 = 32 ∨ (Rect.block (s := S42x128) S42x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S6x128.size a ≤ S6x128.size a
  hwx0_12 : ∀ i : grid0.Coords, EltTy.bits .f32 = 32 ∨ (Rect.block (s := S6x128) S6x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x64x64x128.size a ≤ S1x1024x1024x128.size a
  hwx0_13 : ∀ i : grid0.Coords, EltTy.bits .f32 = 32 ∨ (Rect.block (s := S1x1024x1024x128) S1x64x64x128.size (cc0_transform_13 i) (hinb0_13 i)).WholeWords (EltTy.packing .f32)

variable [Facts₀]

def dot_S4096x66_S66x128_S4096x128_1_0_0_1_n_n : DotDims S4096x66 S66x128 S4096x128 where
  lhsContracting := [1]
  rhsContracting := [0]
  lhsNonContracting := [0]
  rhsNonContracting := [1]
  lhsBatch := []
  rhsBatch := []
  wf := dot_S4096x66_S66x128_S4096x128_1_0_0_1_n_n_wf
def dot_S4096x42_S42x128_S4096x128_1_0_0_1_n_n : DotDims S4096x42 S42x128 S4096x128 where
  lhsContracting := [1]
  rhsContracting := [0]
  lhsNonContracting := [0]
  rhsNonContracting := [1]
  lhsBatch := []
  rhsBatch := []
  wf := dot_S4096x42_S42x128_S4096x128_1_0_0_1_n_n_wf
def dot_S4096x6_S6x128_S4096x128_1_0_0_1_n_n : DotDims S4096x6 S6x128 S4096x128 where
  lhsContracting := [1]
  rhsContracting := [0]
  lhsNonContracting := [0]
  rhsNonContracting := [1]
  lhsBatch := []
  rhsBatch := []
  wf := dot_S4096x6_S6x128_S4096x128_1_0_0_1_n_n_wf

abbrev win0_0 : Pipeline.Window sig grid0 :=
  Pipeline.Window.ofSpec (Memref.whole main_v1) S64x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S64x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S64x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S64x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S64x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg0) S1x64x64x42.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8) S66x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S42x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S6x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S1x64x64x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S1x1024x1024x42 : Shape := ⟨4, ![1, 1024, 1024, 42]⟩
abbrev S115x128 : Shape := ⟨2, ![115, 128]⟩
abbrev S1x1024 : Shape := ⟨2, ![1, 1024]⟩
abbrev S1x1024x1 : Shape := ⟨3, ![1, 1024, 1]⟩
abbrev S1x1x1024 : Shape := ⟨3, ![1, 1, 1024]⟩
abbrev S1x1024x1024 : Shape := ⟨3, ![1, 1024, 1024]⟩
abbrev S_ : Shape := ⟨0, ![]⟩
abbrev S1x1024x1024x1 : Shape := ⟨4, ![1, 1024, 1024, 1]⟩
abbrev S1x1x1x66 : Shape := ⟨4, ![1, 1, 1, 66]⟩
abbrev S1x1024x1024x66 : Shape := ⟨4, ![1, 1024, 1024, 66]⟩
abbrev S1x1x1x6 : Shape := ⟨4, ![1, 1, 1, 6]⟩
abbrev S1x1024x1024x6 : Shape := ⟨4, ![1, 1024, 1024, 6]⟩
abbrev S1x1024x1024x115 : Shape := ⟨4, ![1, 1024, 1024, 115]⟩
abbrev S1x1024x1024x128 : Shape := ⟨4, ![1, 1024, 1024, 128]⟩

abbrev nBuf : Space → Nat
  | .hbm => 74
  | .vmem => 0
  | .smem => 0
  | _ => 0

abbrev bufTy : (tb : Table) → Fin (tcTables nBuf tb) → BufTy
  | .hbm, ⟨0, _⟩ => ⟨S1x1024x1024x42, .f32⟩
  | .hbm, ⟨1, _⟩ => ⟨S115x128, .f32⟩
  | .hbm, ⟨2, _⟩ => ⟨S1x1024, .i32⟩
  | .hbm, ⟨3, _⟩ => ⟨S1x1024, .i32⟩
  | .hbm, ⟨4, _⟩ => ⟨S1x1024, .i32⟩
  | .hbm, ⟨5, _⟩ => ⟨S1x1024, .i32⟩
  | .hbm, ⟨6, _⟩ => ⟨S1x1024x1, .i32⟩
  | .hbm, ⟨7, _⟩ => ⟨S1x1x1024, .i32⟩
  | .hbm, ⟨8, _⟩ => ⟨S1x1024x1024, .i32⟩
  | .hbm, ⟨9, _⟩ => ⟨S1x1024x1024, .i32⟩
  | .hbm, ⟨10, _⟩ => ⟨S1x1024x1024, .i1⟩
  | .hbm, ⟨11, _⟩ => ⟨S1x1024x1, .i32⟩
  | .hbm, ⟨12, _⟩ => ⟨S1x1x1024, .i32⟩
  | .hbm, ⟨13, _⟩ => ⟨S1x1024x1024, .i32⟩
  | .hbm, ⟨14, _⟩ => ⟨S1x1024x1024, .i32⟩
  | .hbm, ⟨15, _⟩ => ⟨S1x1024x1024, .i1⟩
  | .hbm, ⟨16, _⟩ => ⟨S1x1024x1, .i32⟩
  | .hbm, ⟨17, _⟩ => ⟨S1x1x1024, .i32⟩
  | .hbm, ⟨18, _⟩ => ⟨S1x1024x1024, .i32⟩
  | .hbm, ⟨19, _⟩ => ⟨S1x1024x1024, .i32⟩
  | .hbm, ⟨20, _⟩ => ⟨S1x1024x1024, .i32⟩
  | .hbm, ⟨21, _⟩ => ⟨S_, .i32⟩
  | .hbm, ⟨22, _⟩ => ⟨S1x1024x1024, .i32⟩
  | .hbm, ⟨23, _⟩ => ⟨S1x1024x1024, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S1x1024x1024, .i32⟩
  | .hbm, ⟨28, _⟩ => ⟨S1x1024x1024, .i32⟩
  | .hbm, ⟨29, _⟩ => ⟨S_, .i32⟩
  | .hbm, ⟨30, _⟩ => ⟨S1x1024x1024, .i32⟩
  | .hbm, ⟨31, _⟩ => ⟨S1x1024x1024, .i32⟩
  | .hbm, ⟨32, _⟩ => ⟨S_, .i32⟩
  | .hbm, ⟨33, _⟩ => ⟨S_, .i32⟩
  | .hbm, ⟨34, _⟩ => ⟨S1x1024x1024, .i32⟩
  | .hbm, ⟨35, _⟩ => ⟨S1x1024x1024, .i32⟩
  | .hbm, ⟨36, _⟩ => ⟨S1x1024x1024x1, .i32⟩
  | .hbm, ⟨37, _⟩ => ⟨S1x1x1x66, .i32⟩
  | .hbm, ⟨38, _⟩ => ⟨S1x1024x1024x66, .i32⟩
  | .hbm, ⟨39, _⟩ => ⟨S1x1024x1024x66, .i32⟩
  | .hbm, ⟨40, _⟩ => ⟨S1x1024x1024x66, .i1⟩
  | .hbm, ⟨41, _⟩ => ⟨S1x1024x1024x66, .f32⟩
  | .hbm, ⟨42, _⟩ => ⟨S1x1024x1, .i32⟩
  | .hbm, ⟨43, _⟩ => ⟨S1x1x1024, .i32⟩
  | .hbm, ⟨44, _⟩ => ⟨S1x1024x1024, .i32⟩
  | .hbm, ⟨45, _⟩ => ⟨S1x1024x1024, .i32⟩
  | .hbm, ⟨46, _⟩ => ⟨S1x1024x1024, .i32⟩
  | .hbm, ⟨47, _⟩ => ⟨S_, .i32⟩
  | .hbm, ⟨48, _⟩ => ⟨S1x1024x1024, .i32⟩
  | .hbm, ⟨49, _⟩ => ⟨S1x1024x1024, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x1024x1024, .i32⟩
  | .hbm, ⟨54, _⟩ => ⟨S1x1024x1024, .i32⟩
  | .hbm, ⟨55, _⟩ => ⟨S_, .i32⟩
  | .hbm, ⟨56, _⟩ => ⟨S1x1024x1024, .i32⟩
  | .hbm, ⟨57, _⟩ => ⟨S1x1024x1024, .i32⟩
  | .hbm, ⟨58, _⟩ => ⟨S1x1024x1024, .i1⟩
  | .hbm, ⟨59, _⟩ => ⟨S1x1024x1024, .i1⟩
  | .hbm, ⟨60, _⟩ => ⟨S_, .i32⟩
  | .hbm, ⟨61, _⟩ => ⟨S_, .i32⟩
  | .hbm, ⟨62, _⟩ => ⟨S1x1024x1024, .i32⟩
  | .hbm, ⟨63, _⟩ => ⟨S1x1024x1024, .i32⟩
  | .hbm, ⟨64, _⟩ => ⟨S1x1024x1024x1, .i32⟩
  | .hbm, ⟨65, _⟩ => ⟨S1x1x1x6, .i32⟩
  | .hbm, ⟨66, _⟩ => ⟨S1x1024x1024x6, .i32⟩
  | .hbm, ⟨67, _⟩ => ⟨S1x1024x1024x6, .i32⟩
  | .hbm, ⟨68, _⟩ => ⟨S1x1024x1024x6, .i1⟩
  | .hbm, ⟨69, _⟩ => ⟨S1x1024x1024x6, .f32⟩
  | .hbm, ⟨70, _⟩ => ⟨S1x1024x1024x1, .i1⟩
  | .hbm, ⟨71, _⟩ => ⟨S1x1024x1024x1, .f32⟩
  | .hbm, ⟨72, _⟩ => ⟨S1x1024x1024x115, .f32⟩
  | .hbm, ⟨73, _⟩ => ⟨S1x1024x1024x128, .f32⟩
  | _, _ => ⟨S1x1024x1024x42, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_c_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v17 : Ref sig .tc := ⟨.hbm, 31, rfl⟩
abbrev main_c_2 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_3 : Ref sig .tc := ⟨.hbm, 47, rfl⟩
abbrev main_v25 : Ref sig .tc := ⟨.hbm, 48, rfl⟩
abbrev main_v26 : Ref sig .tc := ⟨.hbm, 49, rfl⟩
abbrev main_c_4 : Ref sig .tc := ⟨.hbm, 50, rfl⟩
abbrev main_c_5 : Ref sig .tc := ⟨.hbm, 51, rfl⟩
abbrev main_call3_v0 : Ref sig .tc := ⟨.hbm, 52, rfl⟩
abbrev main_call3_v1 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_6 : Ref sig .tc := ⟨.hbm, 60, rfl⟩
abbrev main_call4_v0 : Ref sig .tc := ⟨.hbm, 61, rfl⟩
abbrev main_call4_v1 : Ref sig .tc := ⟨.hbm, 62, rfl⟩
abbrev main_v30 : Ref sig .tc := ⟨.hbm, 63, rfl⟩
abbrev main_call5_v0 : Ref sig .tc := ⟨.hbm, 64, rfl⟩
abbrev main_call5_v1 : Ref sig .tc := ⟨.hbm, 65, rfl⟩
abbrev main_call5_v2 : Ref sig .tc := ⟨.hbm, 66, rfl⟩
abbrev main_call5_v3 : Ref sig .tc := ⟨.hbm, 67, rfl⟩
abbrev main_call5_v4 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩

abbrev nD : Nat := 1
abbrev τ : Topo := Topo.v7x

variable {F : FTy → Type} [FloatOps F]

class Facts₀ : Prop where
  bcast_S1x1024_S1x1024x1_0_1 : S1x1024.BroadcastsInDim S1x1024x1 (![0, 1] : Fin 2 → Fin S1x1024x1.rank)
  bcast_S1x1024_S1x1x1024_0_2 : S1x1024.BroadcastsInDim S1x1x1024 (![0, 2] : Fin 2 → Fin S1x1x1024.rank)
  bcast_S1x1024x1_S1x1024x1024_0_1_2 : S1x1024x1.BroadcastsInDim S1x1024x1024 (![0, 1, 2] : Fin 3 → Fin S1x1024x1024.rank)
  bcast_S1x1x1024_S1x1024x1024_0_1_2 : S1x1x1024.BroadcastsInDim S1x1024x1024 (![0, 1, 2] : Fin 3 → Fin S1x1024x1024.rank)
  bcast_S_S1x1024x1024 : S_.BroadcastsInDim S1x1024x1024 (![] : Fin 0 → Fin S1x1024x1024.rank)
  bcast_S1x1024x1024_S1x1024x1024x1_0_1_2 : S1x1024x1024.BroadcastsInDim S1x1024x1024x1 (![0, 1, 2] : Fin 3 → Fin S1x1024x1024x1.rank)
  bcast_S1x1024x1024x1_S1x1024x1024x66_0_1_2_3 : S1x1024x1024x1.BroadcastsInDim S1x1024x1024x66 (![0, 1, 2, 3] : Fin 4 → Fin S1x1024x1024x66.rank)
  bcast_S1x1x1x66_S1x1024x1024x66_0_1_2_3 : S1x1x1x66.BroadcastsInDim S1x1024x1024x66 (![0, 1, 2, 3] : Fin 4 → Fin S1x1024x1024x66.rank)
  bcast_S1x1024x1024x1_S1x1024x1024x6_0_1_2_3 : S1x1024x1024x1.BroadcastsInDim S1x1024x1024x6 (![0, 1, 2, 3] : Fin 4 → Fin S1x1024x1024x6.rank)
  bcast_S1x1x1x6_S1x1024x1024x6_0_1_2_3 : S1x1x1x6.BroadcastsInDim S1x1024x1024x6 (![0, 1, 2, 3] : Fin 4 → Fin S1x1024x1024x6.rank)
  concatenates_S1x1024x1024x66_S1x1024x1024x42_S1x1024x1024x1_S1x1024x1024x6_S1x1024x1024x115_d3 : Shape.Concatenates [S1x1024x1024x66, S1x1024x1024x42, S1x1024x1024x1, S1x1024x1024x6] S1x1024x1024x115 3
  dot_S1x1024x1024x115_S115x128_S1x1024x1024x128_3_0_012_1_n_n_wf : DotDims.WF S1x1024x1024x115 S115x128 S1x1024x1024x128 [3] [0] [0, 1, 2] [1] [] []

variable [Facts₀]

def dot_S1x1024x1024x115_S115x128_S1x1024x1024x128_3_0_012_1_n_n : DotDims S1x1024x1024x115 S115x128 S1x1024x1024x128 where
  lhsContracting := [3]
  rhsContracting := [0]
  lhsNonContracting := [0, 1, 2]
  rhsNonContracting := [1]
  lhsBatch := []
  rhsBatch := []
  wf := dot_S1x1024x1024x115_S115x128_S1x1024x1024x128_3_0_012_1_n_n_wf

class Facts : Prop extends Facts₀ where

variable [Facts]
-- ==== Proof.LibSharedLaunch.lean ====
/-
  The frame run of a one-region program whose windows may SHARE an array, stated once for any program.

  When a kernel is handed one array through several input windows, the buffers behind its windows are fewer than
  the windows, and the launch cannot give each window its array at the full share.  What it can do is hand over
  each distinct buffer whole; the certificate then says how each is dealt among the windows on it (`hsplit`): an
  array read by two windows goes half to each (`pointsTo_halves`), and reading needs no more.  Everything else is
  as for distinct arrays: the body obligation at every point, nothing owed, @main up to the region, and an
  invariant that is just the core's scoped buffers that are no staging buffer.  The conclusion is the same post as
  for distinct arrays: every window's array at what the write-backs make of it, every other unscoped buffer as the
  region found it.

  `arrays_eq_shares` restates the windows' holdings buffer by buffer, each whole at its window's share, which is the
  form in which `hsplit` is proved.
-/
import Idealize.ShloMosaic.Lib.Pipeline.Frame
import Idealize.ShloMosaic.Lib.Pipeline.Kit
import Idealize.ShloMosaic.Lib.Pipeline.Launch

noncomputable section

namespace Cert.Lib.SharedLaunch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}

local notation "𝕄" => MT nD τ sig Unit Val ℕ (UR sig nD τ) ℕ

/-- A buffer whole at the full share is the same buffer at the left half share and at the right half share. -/
theorem pointsTo_halves (ℓ : Loc nD τ sig) (f : Buf Val ℓ) :
    ((ℓ ↦{fullShare} f) : sProp 𝕄) ⊢ iprop((ℓ ↦{fullShare.left} f) ∗ (ℓ ↦{fullShare.right} f)) :=
  (pointsTo_share (PosShare.mem_left_op_right fullShare)).1

variable {Λ₀ : Idealize.SL.Sem.Labels} {P : Type}

/-- The windows' holdings, each array a whole buffer at its window's share. -/
theorem arrays_eq_shares {cfg : Cfg sig Λ₀} {c : Dev nD} (dat : Dat τ Val Unit ℕ (UR sig nD τ) ℕ cfg c)
    (harr : ∀ w, (cfg.spec w).arr.IsWhole)
    (G : (w : Fin cfg.W) → Buf Val ((cfg.win w).arr.view.loc (c.tc : Thread nD τ))) :
    dat.arrays G
      = bigSep Finset.univ fun w : Fin cfg.W => (((c.tc : Thread nD τ).loc (arrRef cfg.spec w)) ↦{dat.share w} G w : sProp 𝕄) := by
  unfold Dat.arrays
  exact bigSep_congr fun w _ => by rw [(harr w).set_eq_univ]

variable [Fintype P] [DecidableEq P] [∀ e, Nonempty (Val e)]

/-- THE FRAME RUN for windows that may share arrays: from the layout facts that do not ask the arrays distinct, the
    body obligation, @main up to the region and the deal of the distinct buffers among the windows, every weakly fair
    execution terminates without a fault, every window's array ends at `Dat.arrAt … N` and every other unscoped buffer as
    the region found it. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (Ix := Unit) (Name := ℕ) (U := UR sig nD τ) (Lvl := ℕ) (cfgs p).spec c (V c) : sProp 𝕄)
      ⊢ (dats p c).arrays ((dats p c).arrAt · 0))
    (hΦ : ∀ c t, (dats p c).Φ t = scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main
    (hbody := hbody) (hne := hne) (harr := harr) (hstage := hstage) (howed := howed)
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => by
      rw [hΦ]
      iintro ⟨-, H⟩
      iexact H)
    (hout := fun c => by
      rw [hΦ]
      iintro H
      isplitr; · iempintro
      iexact H)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h => h)

end Cert.Lib.SharedLaunch

end
-- ==== Proof.KFrame.lean ====
/-
  The frame of the pairwise-embedding kernel, at any reading of its floats.

  The program is twelve host lines (four id vectors reshaped to columns, the weight matrix cut into its four row
  bands) and one kernel over a 16 x 16 grid of 64 x 64 tiles.  Point (i, j) is handed rows i of the four id columns,
  rows j of the SAME four columns a second time, tile (i, j) of the pair features and the four weight bands whole,
  and writes tile (i, j) of the result.  Because each id column is read through two windows, the launch gives each
  of the two half of the column; reading needs no more.

  What is proved here: the body, run on whole staging buffers holding any contents x0 … x12, leaves the output
  buffer at one pure function `tileOf` of them and everything else as it was; every input buffer holds its
  window's block of the array at every point, fetched there or not; hence the body's obligation at every point,
  the run of the whole program, the arrays' contents at its end, and the frame: the six arguments end unchanged.
-/
import proofs.«116782_j43044162241209_2_alg».proof.Proof.Gen.Kernel.Launch
import proofs.«116782_j43044162241209_2_alg».proof.Proof.Gen.Kernel.Skeleton
import proofs.«116782_j43044162241209_2_alg».proof.Proof.Gen.Kernel.Points
import proofs.«116782_j43044162241209_2_alg».proof.Proof.LibSharedLaunch
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel -/

/-- The core's buffers when the kernel is entered: the launch contents after the twelve host lines. -/
abbrev V (c : Dev nD) (b : Ref sig .tc) : Buf (Elt F) ((c : Thread nD τ).loc b) := StableHlo.after hostOps0 (fun b => m (c, b)) b

/-- No host line allocates. -/
theorem hostOps0_fresh : (hostOps0 : List (HloOp τ sig (Elt F))).Forall fun op => op.fresh = ∅ := by
  simp only [List.Forall]; repeat' constructor

/-- The program is its host lines, then the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line writes argument 0: the kernel finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host line writes argument 1: the kernel finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host line writes argument 2: the kernel finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host line writes argument 3: the kernel finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host line writes argument 4: the kernel finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host line writes argument 5: the kernel finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## A window's block at a point -/

/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not: where it is not fetched
    its block index has not moved since the last fetch, and the body left the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not: where it is not fetched
    its block index has not moved since the last fetch, and the body left the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not: where it is not fetched
    its block index has not moved since the last fetch, and the body left the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not: where it is not fetched
    its block index has not moved since the last fetch, and the body left the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not: where it is not fetched
    its block index has not moved since the last fetch, and the body left the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not: where it is not fetched
    its block index has not moved since the last fetch, and the body left the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not: where it is not fetched
    its block index has not moved since the last fetch, and the body left the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, fetched there or not: where it is not fetched
    its block index has not moved since the last fetch, and the body left the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current buffer holds its block at every point, fetched there or not: where it is not fetched
    its block index has not moved since the last fetch, and the body left the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current buffer holds its block at every point, fetched there or not: where it is not fetched
    its block index has not moved since the last fetch, and the body left the block in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current buffer holds its block at every point, fetched there or not: where it is not fetched
    its block index has not moved since the last fetch, and the body left the block in place. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current buffer holds its block at every point, fetched there or not: where it is not fetched
    its block index has not moved since the last fetch, and the body left the block in place. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current buffer holds its block at every point, fetched there or not: where it is not fetched
    its block index has not moved since the last fetch, and the body left the block in place. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## What the body computes -/

abbrev rc64 : Rect S64x1 := Rect.unit (s := S64x1) ![0, 0] S64x1.size inb_S64x1_S64x1_0_0
abbrev rcTok : Rect S1x64x64x42 := Rect.unit (s := S1x64x64x42) ![0, 0, 0, 0] S1x64x64x42.size inb_S1x64x64x42_S1x64x64x42_0_0_0_0
abbrev rc66 : Rect S66x128 := Rect.unit (s := S66x128) ![0, 0] S66x128.size inb_S66x128_S66x128_0_0
abbrev rc42 : Rect S42x128 := Rect.unit (s := S42x128) ![0, 0] S42x128.size inb_S42x128_S42x128_0_0
abbrev rc1 : Rect S1x128 := Rect.unit (s := S1x128) ![0, 0] S1x128.size inb_S1x128_S1x128_0_0
abbrev rc6 : Rect S6x128 := Rect.unit (s := S6x128) ![0, 0] S6x128.size inb_S6x128_S6x128_0_0
abbrev rcOut : Rect S1x64x64x128 := Rect.unit (s := S1x64x64x128) ![0, 0, 0, 0] S1x64x64x128.size inb_S1x64x64x128_S1x64x64x128_0_0_0_0

/-- The one value the body stores, from what its thirteen loads read: the query-side and key-side asym / sym /
    entity / residue columns (x0 … x7), the pair-feature tile (x8) and the four weight bands (x9 … x12). -/
def stored (x0 : Vec F S64x1 .i32) (x1 : Vec F S64x1 .i32) (x2 : Vec F S64x1 .i32) (x3 : Vec F S64x1 .i32) (x4 : Vec F S64x1 .i32) (x5 : Vec F S64x1 .i32) (x6 : Vec F S64x1 .i32) (x7 : Vec F S64x1 .i32) (x8 : Vec F S1x64x64x42 .f32) (x9 : Vec F S66x128 .f32) (x10 : Vec F S42x128 .f32) (x11 : Vec F S1x128 .f32) (x12 : Vec F S6x128 .f32) : FVec F S1x64x64x128 .f32 :=
  k0_pay1 (k0_pay5 (View.ld x2 rc64) (View.ld x6 rc64))
    (k0_pay8 (k0_pay4 (View.ld x0 rc64) (View.ld x4 rc64)) (k0_pay6 (View.ld x3 rc64) (View.ld x7 rc64)) k0_pay7
      (View.ld x9 rc66) (View.ld x8 rcTok) (View.ld x10 rc42))
    (k0_pay9 (F := F) (k0_pay2 (View.ld x1 rc64)) (k0_pay3 (View.ld x5 rc64)) (k0_pay4 (View.ld x0 rc64) (View.ld x4 rc64))
      (k0_pay5 (View.ld x2 rc64) (View.ld x6 rc64)))
    (View.ld x12 rc6) (View.ld x11 rc1)

/-- The output buffer after the body: its one store, which covers it. -/
def tileOf (x0 : Vec F S64x1 .i32) (x1 : Vec F S64x1 .i32) (x2 : Vec F S64x1 .i32) (x3 : Vec F S64x1 .i32) (x4 : Vec F S64x1 .i32) (x5 : Vec F S64x1 .i32) (x6 : Vec F S64x1 .i32) (x7 : Vec F S64x1 .i32) (x8 : Vec F S1x64x64x42 .f32) (x9 : Vec F S66x128 .f32) (x10 : Vec F S42x128 .f32) (x11 : Vec F S1x128 .f32) (x12 : Vec F S6x128 .f32) : Vec F S1x64x64x128 .f32 :=
  View.canon [⟨rcOut, stored x0 x1 x2 x3 x4 x5 x6 x7 x8 x9 x10 x11 x12⟩]

/-- The store covers the buffer. -/
theorem coverOut (p0 : Vec F S1x64x64x128 .f32) (y : S1x64x64x128.Idx) :
    ∃ pc ∈ ([⟨rcOut, p0⟩] : List (View.Piece (Elt F) S1x64x64x128 .f32)), y ∈ pc.1.set :=
  View.cover_of_tiled [⟨rcOut, p0⟩] S1x64x64x128.size (by rfl) y

/-! ## The body's triple -/

set_option maxHeartbeats 4000000 in
/-- On whole staging buffers, the inputs' at contents `x0 … x12` and the output's at anything, the body runs to its
    continuation with the inputs' as they were and the output's at `tileOf` of them. -/
theorem sound_kernel (c : Dev nD) (E : Set ℕ) (i : grid0.Coords) (arg2 : Memref sig .tc .vmem S64x1 .i32) (harg2 : arg2.IsWhole) (arg3 : Memref sig .tc .vmem S64x1 .i32) (harg3 : arg3.IsWhole) (arg4 : Memref sig .tc .vmem S64x1 .i32) (harg4 : arg4.IsWhole) (arg5 : Memref sig .tc .vmem S64x1 .i32) (harg5 : arg5.IsWhole) (arg6 : Memref sig .tc .vmem S64x1 .i32) (harg6 : arg6.IsWhole) (arg7 : Memref sig .tc .vmem S64x1 .i32) (harg7 : arg7.IsWhole) (arg8 : Memref sig .tc .vmem S64x1 .i32) (harg8 : arg8.IsWhole) (arg9 : Memref sig .tc .vmem S64x1 .i32) (harg9 : arg9.IsWhole) (arg10 : Memref sig .tc .vmem S1x64x64x42 .f32) (harg10 : arg10.IsWhole) (arg11 : Memref sig .tc .vmem S66x128 .f32) (harg11 : arg11.IsWhole) (arg12 : Memref sig .tc .vmem S42x128 .f32) (harg12 : arg12.IsWhole) (arg13 : Memref sig .tc .vmem S1x128 .f32) (harg13 : arg13.IsWhole) (arg14 : Memref sig .tc .vmem S6x128 .f32) (harg14 : arg14.IsWhole) (arg15 : Memref sig .tc .vmem S1x64x64x128 .f32) (harg15 : arg15.IsWhole)
    (x0 : Vec F S64x1 .i32) (x1 : Vec F S64x1 .i32) (x2 : Vec F S64x1 .i32) (x3 : Vec F S64x1 .i32) (x4 : Vec F S64x1 .i32) (x5 : Vec F S64x1 .i32) (x6 : Vec F S64x1 .i32) (x7 : Vec F S64x1 .i32) (x8 : Vec F S1x64x64x42 .f32) (x9 : Vec F S66x128 .f32) (x10 : Vec F S42x128 .f32) (x11 : Vec F S1x128 .f32) (x12 : Vec F S6x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (tileOf x0 x1 x2 x3 x4 x5 x6 x7 x8 x9 x10 x11 x12)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__kernel_eq_skeleton]; unfold cc0__kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (coverOut _)

/-! ## The proof data -/

/-- The proof data on core `c`: the arrays as the kernel finds them; after the body at point `t` each input's buffer
    at its block and the output's at `tileOf` of the input blocks; the invariant the core's scoped buffers that are
    no staging buffer; nothing owed; each id column's two windows at its left and right half, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => tileOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.scopedRest (Ix := Unit) (Name := ℕ) (U := UR sig nD τ) (Lvl := ℕ) (Val := Elt F) spec0 c
  q w := match w with
    | ⟨0, _⟩ => fullShare.left | ⟨1, _⟩ => fullShare.left | ⟨2, _⟩ => fullShare.left | ⟨3, _⟩ => fullShare.left
    | ⟨4, _⟩ => fullShare.right | ⟨5, _⟩ => fullShare.right | ⟨6, _⟩ => fullShare.right | ⟨7, _⟩ => fullShare.right
    | ⟨8, _⟩ => fullShare | ⟨9, _⟩ => fullShare | ⟨10, _⟩ => fullShare | ⟨11, _⟩ => fullShare | ⟨12, _⟩ => fullShare | ⟨13, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = tileOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

/-- The body at any point: the inputs' buffers hold their blocks, so the triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KLaunch.lean ====
/-
  The run of the pairwise-embedding program and its frame.

  Ten distinct buffers stand behind the kernel's fourteen windows: the four id columns are each read through a
  query-side and a key-side window.  The launch hands over each buffer whole; each id column is dealt half to its
  query-side window and half to its key-side one, every other buffer whole to its one window.  With that, the body
  obligation at every point and the host lines before the kernel give the run: every array of the kernel ends at
  what the write-backs make of it, every other buffer as the kernel found it.  The six arguments are among the
  latter, or (the pair features) an array no point writes: they end unchanged.
-/
import proofs.«116782_j43044162241209_2_alg».proof.Proof.KFrame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the windows, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v1) ↦{fullShare} W main_v1) ∗ (((c : Thread nD τ).loc main_v3) ↦{fullShare} W main_v3)
          ∗ (((c : Thread nD τ).loc main_v5) ↦{fullShare} W main_v5) ∗ (((c : Thread nD τ).loc main_v7) ↦{fullShare} W main_v7)
          ∗ (((c : Thread nD τ).loc main_arg0) ↦{fullShare} W main_arg0) ∗ (((c : Thread nD τ).loc main_v8) ↦{fullShare} W main_v8)
          ∗ (((c : Thread nD τ).loc main_v9) ↦{fullShare} W main_v9) ∗ (((c : Thread nD τ).loc main_v10) ↦{fullShare} W main_v10)
          ∗ (((c : Thread nD τ).loc main_v11) ↦{fullShare} W main_v11) ∗ (((c : Thread nD τ).loc main_v12) ↦{fullShare} W main_v12)) := by
  unfold Pipeline.arrBufs
  exact bigSep_eq_bigSepL_of_eq [main_v1, main_v3, main_v5, main_v7, main_arg0, main_v8, main_v9, main_v10, main_v11, main_v12] (by decide) (by decide) _

/-- The deal: each id column half to its query-side window and half to its key-side one, the rest whole. -/
theorem hsplit (c : Dev nD) :
    (Pipeline.arrBufs (Ix := Unit) (Name := ℕ) (U := UR sig nD τ) (Lvl := ℕ) (cfgs 0).spec c (V m c) : sProp 𝕄)
      ⊢ (dats m 0 c).arrays ((dats m 0 c).arrAt · 0) := by
  rw [Cert.Lib.SharedLaunch.arrays_eq_shares (dats m 0 c) arr_whole0]
  show (Pipeline.arrBufs (Ix := Unit) (Name := ℕ) (U := UR sig nD τ) (Lvl := ℕ) spec0 c (V m c) : sProp 𝕄) ⊢ _
  rw [arrBufs_eq, bigSep_W0]
  iintro ⟨H1, H3, H5, H7, Ha, H8, H9, H10, H11, H12⟩
  ihave H1' := (Cert.Lib.SharedLaunch.pointsTo_halves _ _) $$ H1
  icases H1' with ⟨H1l, H1r⟩
  ihave H3' := (Cert.Lib.SharedLaunch.pointsTo_halves _ _) $$ H3
  icases H3' with ⟨H3l, H3r⟩
  ihave H5' := (Cert.Lib.SharedLaunch.pointsTo_halves _ _) $$ H5
  icases H5' with ⟨H5l, H5r⟩
  ihave H7' := (Cert.Lib.SharedLaunch.pointsTo_halves _ _) $$ H7
  icases H7' with ⟨H7l, H7r⟩
  isplitl [H1l]; · iexact H1l
  isplitl [H3l]; · iexact H3l
  isplitl [H5l]; · iexact H5l
  isplitl [H7l]; · iexact H7l
  isplitl [H1r]; · iexact H1r
  isplitl [H3r]; · iexact H3r
  isplitl [H5r]; · iexact H5r
  isplitl [H7r]; · iexact H7r
  isplitl [Ha]; · iexact Ha
  isplitl [H8]; · iexact H8
  isplitl [H9]; · iexact H9
  isplitl [H10]; · iexact H10
  isplitl [H11]; · iexact H11
  iexact H12

set_option backward.isDefEq.respectTransparency.types false in
/-- Every weakly fair execution of the program terminates without a fault, every array of the kernel at what the
    write-backs make of it and every other unscoped buffer as the kernel found it. -/
theorem run_main : θ_run defs (onTc (τ := τ) (main (F := F))) (s₀ m ρ) (Pipeline.FramePost cfgs (dats m) 0 (V m)) :=
  Cert.Lib.SharedLaunch.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- The frame: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 8).trans (((dats m 0 c).arrAt_in 8 rfl _).trans ((A_eq m c 8).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.Kernel.Hand

end
-- ==== Proof.KIFrame.lean ====
/-
  The frame of the pairwise-embedding kernel, at any reading of its floats.

  The program is twelve host lines (four id vectors reshaped to columns, the weight matrix cut into its four row
  bands) and one kernel over a 16 x 16 grid of 64 x 64 tiles.  Point (i, j) is handed rows i of the four id columns,
  rows j of the SAME four columns a second time, tile (i, j) of the pair features and the four weight bands whole,
  and writes tile (i, j) of the result.  Because each id column is read through two windows, the launch gives each
  of the two half of the column; reading needs no more.

  What is proved here: the body, run on whole staging buffers holding any contents x0 … x12, leaves the output
  buffer at one pure function `tileOf` of them and everything else as it was; every input buffer holds its
  window's block of the array at every point, fetched there or not; hence the body's obligation at every point,
  the run of the whole program, the arrays' contents at its end, and the frame: the six arguments end unchanged.
-/
import proofs.«116782_j43044162241209_2_alg».proof.Proof.Gen.KernelIdeal.Launch
import proofs.«116782_j43044162241209_2_alg».proof.Proof.Gen.KernelIdeal.Skeleton
import proofs.«116782_j43044162241209_2_alg».proof.Proof.Gen.KernelIdeal.Points
import proofs.«116782_j43044162241209_2_alg».proof.Proof.LibSharedLaunch
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel -/

/-- The core's buffers when the kernel is entered: the launch contents after the twelve host lines. -/
abbrev V (c : Dev nD) (b : Ref sig .tc) : Buf (Elt F) ((c : Thread nD τ).loc b) := StableHlo.after hostOps0 (fun b => m (c, b)) b

/-- No host line allocates. -/
theorem hostOps0_fresh : (hostOps0 : List (HloOp τ sig (Elt F))).Forall fun op => op.fresh = ∅ := by
  simp only [List.Forall]; repeat' constructor

/-- The program is its host lines, then the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line writes argument 0: the kernel finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host line writes argument 1: the kernel finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host line writes argument 2: the kernel finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host line writes argument 3: the kernel finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host line writes argument 4: the kernel finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
/-- No host line writes argument 5: the kernel finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))

/-! ## A window's block at a point -/

/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not: where it is not fetched
    its block index has not moved since the last fetch, and the body left the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, fetched there or not: where it is not fetched
    its block index has not moved since the last fetch, and the body left the block in place. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, fetched there or not: where it is not fetched
    its block index has not moved since the last fetch, and the body left the block in place. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, fetched there or not: where it is not fetched
    its block index has not moved since the last fetch, and the body left the block in place. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, fetched there or not: where it is not fetched
    its block index has not moved since the last fetch, and the body left the block in place. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, fetched there or not: where it is not fetched
    its block index has not moved since the last fetch, and the body left the block in place. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, fetched there or not: where it is not fetched
    its block index has not moved since the last fetch, and the body left the block in place. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, fetched there or not: where it is not fetched
    its block index has not moved since the last fetch, and the body left the block in place. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current buffer holds its block at every point, fetched there or not: where it is not fetched
    its block index has not moved since the last fetch, and the body left the block in place. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current buffer holds its block at every point, fetched there or not: where it is not fetched
    its block index has not moved since the last fetch, and the body left the block in place. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current buffer holds its block at every point, fetched there or not: where it is not fetched
    its block index has not moved since the last fetch, and the body left the block in place. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current buffer holds its block at every point, fetched there or not: where it is not fetched
    its block index has not moved since the last fetch, and the body left the block in place. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current buffer holds its block at every point, fetched there or not: where it is not fetched
    its block index has not moved since the last fetch, and the body left the block in place. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## What the body computes -/

abbrev rc64 : Rect S64x1 := Rect.unit (s := S64x1) ![0, 0] S64x1.size inb_S64x1_S64x1_0_0
abbrev rcTok : Rect S1x64x64x42 := Rect.unit (s := S1x64x64x42) ![0, 0, 0, 0] S1x64x64x42.size inb_S1x64x64x42_S1x64x64x42_0_0_0_0
abbrev rc66 : Rect S66x128 := Rect.unit (s := S66x128) ![0, 0] S66x128.size inb_S66x128_S66x128_0_0
abbrev rc42 : Rect S42x128 := Rect.unit (s := S42x128) ![0, 0] S42x128.size inb_S42x128_S42x128_0_0
abbrev rc1 : Rect S1x128 := Rect.unit (s := S1x128) ![0, 0] S1x128.size inb_S1x128_S1x128_0_0
abbrev rc6 : Rect S6x128 := Rect.unit (s := S6x128) ![0, 0] S6x128.size inb_S6x128_S6x128_0_0
abbrev rcOut : Rect S1x64x64x128 := Rect.unit (s := S1x64x64x128) ![0, 0, 0, 0] S1x64x64x128.size inb_S1x64x64x128_S1x64x64x128_0_0_0_0

/-- The one value the body stores, from what its thirteen loads read: the query-side and key-side asym / sym /
    entity / residue columns (x0 … x7), the pair-feature tile (x8) and the four weight bands (x9 … x12). -/
def stored (x0 : Vec F S64x1 .i32) (x1 : Vec F S64x1 .i32) (x2 : Vec F S64x1 .i32) (x3 : Vec F S64x1 .i32) (x4 : Vec F S64x1 .i32) (x5 : Vec F S64x1 .i32) (x6 : Vec F S64x1 .i32) (x7 : Vec F S64x1 .i32) (x8 : Vec F S1x64x64x42 .f32) (x9 : Vec F S66x128 .f32) (x10 : Vec F S42x128 .f32) (x11 : Vec F S1x128 .f32) (x12 : Vec F S6x128 .f32) : FVec F S1x64x64x128 .f32 :=
  k0_pay1 (k0_pay5 (View.ld x2 rc64) (View.ld x6 rc64))
    (k0_pay8 (k0_pay4 (View.ld x0 rc64) (View.ld x4 rc64)) (k0_pay6 (View.ld x3 rc64) (View.ld x7 rc64)) k0_pay7
      (View.ld x9 rc66) (View.ld x8 rcTok) (View.ld x10 rc42))
    (k0_pay9 (F := F) (k0_pay2 (View.ld x1 rc64)) (k0_pay3 (View.ld x5 rc64)) (k0_pay4 (View.ld x0 rc64) (View.ld x4 rc64))
      (k0_pay5 (View.ld x2 rc64) (View.ld x6 rc64)))
    (View.ld x12 rc6) (View.ld x11 rc1)

/-- The output buffer after the body: its one store, which covers it. -/
def tileOf (x0 : Vec F S64x1 .i32) (x1 : Vec F S64x1 .i32) (x2 : Vec F S64x1 .i32) (x3 : Vec F S64x1 .i32) (x4 : Vec F S64x1 .i32) (x5 : Vec F S64x1 .i32) (x6 : Vec F S64x1 .i32) (x7 : Vec F S64x1 .i32) (x8 : Vec F S1x64x64x42 .f32) (x9 : Vec F S66x128 .f32) (x10 : Vec F S42x128 .f32) (x11 : Vec F S1x128 .f32) (x12 : Vec F S6x128 .f32) : Vec F S1x64x64x128 .f32 :=
  View.canon [⟨rcOut, stored x0 x1 x2 x3 x4 x5 x6 x7 x8 x9 x10 x11 x12⟩]

/-- The store covers the buffer. -/
theorem coverOut (p0 : Vec F S1x64x64x128 .f32) (y : S1x64x64x128.Idx) :
    ∃ pc ∈ ([⟨rcOut, p0⟩] : List (View.Piece (Elt F) S1x64x64x128 .f32)), y ∈ pc.1.set :=
  View.cover_of_tiled [⟨rcOut, p0⟩] S1x64x64x128.size (by rfl) y

/-! ## The body's triple -/

set_option maxHeartbeats 4000000 in
/-- On whole staging buffers, the inputs' at contents `x0 … x12` and the output's at anything, the body runs to its
    continuation with the inputs' as they were and the output's at `tileOf` of them. -/
theorem sound_kernel (c : Dev nD) (E : Set ℕ) (i : grid0.Coords) (arg2 : Memref sig .tc .vmem S64x1 .i32) (harg2 : arg2.IsWhole) (arg3 : Memref sig .tc .vmem S64x1 .i32) (harg3 : arg3.IsWhole) (arg4 : Memref sig .tc .vmem S64x1 .i32) (harg4 : arg4.IsWhole) (arg5 : Memref sig .tc .vmem S64x1 .i32) (harg5 : arg5.IsWhole) (arg6 : Memref sig .tc .vmem S64x1 .i32) (harg6 : arg6.IsWhole) (arg7 : Memref sig .tc .vmem S64x1 .i32) (harg7 : arg7.IsWhole) (arg8 : Memref sig .tc .vmem S64x1 .i32) (harg8 : arg8.IsWhole) (arg9 : Memref sig .tc .vmem S64x1 .i32) (harg9 : arg9.IsWhole) (arg10 : Memref sig .tc .vmem S1x64x64x42 .f32) (harg10 : arg10.IsWhole) (arg11 : Memref sig .tc .vmem S66x128 .f32) (harg11 : arg11.IsWhole) (arg12 : Memref sig .tc .vmem S42x128 .f32) (harg12 : arg12.IsWhole) (arg13 : Memref sig .tc .vmem S1x128 .f32) (harg13 : arg13.IsWhole) (arg14 : Memref sig .tc .vmem S6x128 .f32) (harg14 : arg14.IsWhole) (arg15 : Memref sig .tc .vmem S1x64x64x128 .f32) (harg15 : arg15.IsWhole)
    (x0 : Vec F S64x1 .i32) (x1 : Vec F S64x1 .i32) (x2 : Vec F S64x1 .i32) (x3 : Vec F S64x1 .i32) (x4 : Vec F S64x1 .i32) (x5 : Vec F S64x1 .i32) (x6 : Vec F S64x1 .i32) (x7 : Vec F S64x1 .i32) (x8 : Vec F S1x64x64x42 .f32) (x9 : Vec F S66x128 .f32) (x10 : Vec F S42x128 .f32) (x11 : Vec F S1x128 .f32) (x12 : Vec F S6x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare (tileOf x0 x1 x2 x3 x4 x5 x6 x7 x8 x9 x10 x11 x12)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__kernel_eq_skeleton]; unfold cc0__kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (coverOut _)

/-! ## The proof data -/

/-- The proof data on core `c`: the arrays as the kernel finds them; after the body at point `t` each input's buffer
    at its block and the output's at `tileOf` of the input blocks; the invariant the core's scoped buffers that are
    no staging buffer; nothing owed; each id column's two windows at its left and right half, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => tileOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.scopedRest (Ix := Unit) (Name := ℕ) (U := UR sig nD τ) (Lvl := ℕ) (Val := Elt F) spec0 c
  q w := match w with
    | ⟨0, _⟩ => fullShare.left | ⟨1, _⟩ => fullShare.left | ⟨2, _⟩ => fullShare.left | ⟨3, _⟩ => fullShare.left
    | ⟨4, _⟩ => fullShare.right | ⟨5, _⟩ => fullShare.right | ⟨6, _⟩ => fullShare.right | ⟨7, _⟩ => fullShare.right
    | ⟨8, _⟩ => fullShare | ⟨9, _⟩ => fullShare | ⟨10, _⟩ => fullShare | ⟨11, _⟩ => fullShare | ⟨12, _⟩ => fullShare | ⟨13, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = tileOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

/-- The body at any point: the inputs' buffers hold their blocks, so the triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KILaunch.lean ====
/-
  The run of the pairwise-embedding program and its frame.

  Ten distinct buffers stand behind the kernel's fourteen windows: the four id columns are each read through a
  query-side and a key-side window.  The launch hands over each buffer whole; each id column is dealt half to its
  query-side window and half to its key-side one, every other buffer whole to its one window.  With that, the body
  obligation at every point and the host lines before the kernel give the run: every array of the kernel ends at
  what the write-backs make of it, every other buffer as the kernel found it.  The six arguments are among the
  latter, or (the pair features) an array no point writes: they end unchanged.
-/
import proofs.«116782_j43044162241209_2_alg».proof.Proof.KIFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the windows, one by one. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v1) ↦{fullShare} W main_v1) ∗ (((c : Thread nD τ).loc main_v3) ↦{fullShare} W main_v3)
          ∗ (((c : Thread nD τ).loc main_v5) ↦{fullShare} W main_v5) ∗ (((c : Thread nD τ).loc main_v7) ↦{fullShare} W main_v7)
          ∗ (((c : Thread nD τ).loc main_arg0) ↦{fullShare} W main_arg0) ∗ (((c : Thread nD τ).loc main_v8) ↦{fullShare} W main_v8)
          ∗ (((c : Thread nD τ).loc main_v9) ↦{fullShare} W main_v9) ∗ (((c : Thread nD τ).loc main_v10) ↦{fullShare} W main_v10)
          ∗ (((c : Thread nD τ).loc main_v11) ↦{fullShare} W main_v11) ∗ (((c : Thread nD τ).loc main_v12) ↦{fullShare} W main_v12)) := by
  unfold Pipeline.arrBufs
  exact bigSep_eq_bigSepL_of_eq [main_v1, main_v3, main_v5, main_v7, main_arg0, main_v8, main_v9, main_v10, main_v11, main_v12] (by decide) (by decide) _

/-- The deal: each id column half to its query-side window and half to its key-side one, the rest whole. -/
theorem hsplit (c : Dev nD) :
    (Pipeline.arrBufs (Ix := Unit) (Name := ℕ) (U := UR sig nD τ) (Lvl := ℕ) (cfgs 0).spec c (V m c) : sProp 𝕄)
      ⊢ (dats m 0 c).arrays ((dats m 0 c).arrAt · 0) := by
  rw [Cert.Lib.SharedLaunch.arrays_eq_shares (dats m 0 c) arr_whole0]
  show (Pipeline.arrBufs (Ix := Unit) (Name := ℕ) (U := UR sig nD τ) (Lvl := ℕ) spec0 c (V m c) : sProp 𝕄) ⊢ _
  rw [arrBufs_eq, bigSep_W0]
  iintro ⟨H1, H3, H5, H7, Ha, H8, H9, H10, H11, H12⟩
  ihave H1' := (Cert.Lib.SharedLaunch.pointsTo_halves _ _) $$ H1
  icases H1' with ⟨H1l, H1r⟩
  ihave H3' := (Cert.Lib.SharedLaunch.pointsTo_halves _ _) $$ H3
  icases H3' with ⟨H3l, H3r⟩
  ihave H5' := (Cert.Lib.SharedLaunch.pointsTo_halves _ _) $$ H5
  icases H5' with ⟨H5l, H5r⟩
  ihave H7' := (Cert.Lib.SharedLaunch.pointsTo_halves _ _) $$ H7
  icases H7' with ⟨H7l, H7r⟩
  isplitl [H1l]; · iexact H1l
  isplitl [H3l]; · iexact H3l
  isplitl [H5l]; · iexact H5l
  isplitl [H7l]; · iexact H7l
  isplitl [H1r]; · iexact H1r
  isplitl [H3r]; · iexact H3r
  isplitl [H5r]; · iexact H5r
  isplitl [H7r]; · iexact H7r
  isplitl [Ha]; · iexact Ha
  isplitl [H8]; · iexact H8
  isplitl [H9]; · iexact H9
  isplitl [H10]; · iexact H10
  isplitl [H11]; · iexact H11
  iexact H12

set_option backward.isDefEq.respectTransparency.types false in
/-- Every weakly fair execution of the program terminates without a fault, every array of the kernel at what the
    write-backs make of it and every other unscoped buffer as the kernel found it. -/
theorem run_main : θ_run defs (onTc (τ := τ) (main (F := F))) (s₀ m ρ) (Pipeline.FramePost cfgs (dats m) 0 (V m)) :=
  Cert.Lib.SharedLaunch.θ_run_frame_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hΦ := fun _ _ => rfl)

/-- The frame: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 8).trans (((dats m 0 c).arrAt_in 8 rfl _).trans ((A_eq m c 8).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.KernelIdeal.Hand

end
-- ==== Proof.LibMatmul.lean ====
/-
  A plain matrix product read at an entry, over the extended reals, at any extents.

  The product of an `[M, K]` matrix with a `[K, N]` matrix (left operand contracted on its second axis, right operand
  on its first, no batch axis) accumulated into the zero matrix is, at `(p, e)`, the sum over the contracted coordinate
  `f` of the left operand at `(p, f)` times the right operand at `(f, e)`: the operand indices the product names at
  an output index and a contraction index are `(p, f)` and `(f, e)`, and the one-axis contraction index is its one
  coordinate. `dotGeneral_plain_apply` is the same reading of the host's product, which has no accumulator.
-/
import Idealize.ShloMosaic.Lib.ValueIdx
import Idealize.ShloMosaic.PureOps.Ideal.Laws

open scoped BigOperators

noncomputable section

namespace Cert.Lib.Matmul

open Idealize.ShloMosaic Idealize.ShloMosaic.ValueIdx

variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the product's contraction index, re-indexed by the contracted coordinate. -/
theorem plain_sum {φ₁ φ₂ : FTy} (L : FVec Ideal ⟨2, ![M, K]⟩ φ₁) (R : FVec Ideal ⟨2, ![K, N]⟩ φ₂) (p : Fin M) (e : Fin N) :
    (∑ k : (DotDims.plain M K N).contr.Idx,
        L ((DotDims.plain M K N).lhsIdx (ix2 p e) k) * R ((DotDims.plain M K N).rhsIdx (ix2 p e) k))
      = ∑ f : Fin K, L (ix2 p f) * R (ix2 f e) := by
  rw [← Equiv.sum_comp (contrEquiv1 (DotDims.plain M K N) K rfl rfl).symm]
  refine Finset.sum_congr rfl fun f _ => ?_
  have hk := contrEquiv1_symm_val (DotDims.plain M K N) K rfl rfl f
  have el : (DotDims.plain M K N).lhsIdx (ix2 p e) ((contrEquiv1 (DotDims.plain M K N) K rfl rfl).symm f) = ix2 p f :=
    funext fun a => Fin.ext (by
      match a with
      | ⟨0, _⟩ => exact plain_lhs0 _ _
      | ⟨1, _⟩ => exact (plain_lhs1 _ _).trans hk)
  have er : (DotDims.plain M K N).rhsIdx (ix2 p e) ((contrEquiv1 (DotDims.plain M K N) K rfl rfl).symm f) = ix2 f e :=
    funext fun a => Fin.ext (by
      match a with
      | ⟨0, _⟩ => exact (plain_rhs0 _ _).trans hk
      | ⟨1, _⟩ => exact plain_rhs1 _ _)
  rw [el, er]

/-- A plain `[M, K]` by `[K, N]` product into the zero accumulator, at `(p, e)`. -/
theorem matmul_plain_zero_apply {φ₁ φ₂ : FTy} (prec : Option ContractPrecision) (L : FVec Ideal ⟨2, ![M, K]⟩ φ₁)
    (R : FVec Ideal ⟨2, ![K, N]⟩ φ₂) (p : Fin M) (e : Fin N) :
    matmul (DotDims.plain M K N) prec L R (constant ⟨2, ![M, N]⟩ .f32 0x00000000#32) (ix2 p e)
      = ∑ f : Fin K, L (ix2 p f) * R (ix2 f e) :=
  (Ideal.matmul_constant_zero_apply (DotDims.plain M K N) prec L R (ix2 p e)).trans (plain_sum L R p e)

/-- The same product with an accumulator `acc`: its entry plus the sum. -/
theorem matmul_plain_apply {φ₁ φ₂ : FTy} (prec : Option ContractPrecision) (L : FVec Ideal ⟨2, ![M, K]⟩ φ₁)
    (R : FVec Ideal ⟨2, ![K, N]⟩ φ₂) (acc : FVec Ideal ⟨2, ![M, N]⟩ .f32) (p : Fin M) (e : Fin N) :
    matmul (DotDims.plain M K N) prec L R acc (ix2 p e) = acc (ix2 p e) + ∑ f : Fin K, L (ix2 p f) * R (ix2 f e) :=
  (Ideal.matmul_apply (DotDims.plain M K N) prec L R acc (ix2 p e)).trans (congrArg (acc (ix2 p e) + ·) (plain_sum L R p e))

end Cert.Lib.Matmul

end
-- ==== Proof.Spec.lean ====
/-
  The pairwise relative-position embedding, entry by entry.

  For tokens i and j the feature row has 115 entries: a one-hot of 66 for the clipped residue offset (bin 65 when
  the two tokens are on different chains), the 42 given pair features, one entry that says whether the two tokens
  are of the same entity, and a one-hot of 6 for the clipped chain offset (bin 5 when the tokens are on the same
  chain or of different entities).  The result at (i, j, c) is the product of that row with column c of the weight
  matrix.  Summed band by band it is the four-term form below; summed over all 115 rows at once it is the
  single sum.  The two agree because a sum over 115 = 66 + 42 + 1 + 6 indices splits into its four stretches, which
  needs only that addition is commutative and associative: no entry has to be finite.
-/
import Idealize.ShloMosaic.Lib.ValueIdx
import Idealize.ShloMosaic.PureOps.Ideal
import Mathlib.Algebra.BigOperators.Fin

open scoped BigOperators

noncomputable section

namespace Cert.PairSpec

open Idealize.ShloMosaic Idealize.ShloMosaic.ValueIdx

/-- The residue bin of a pair: the offset plus 32 clipped to [0, 64] on one chain, 65 across chains. -/
def dRes (ai aj ri rj : BitVec 32) : BitVec 32 :=
  Scalar.select (IntOp.cmpi .eq ai aj) (IntOp.minsi 64#32 (IntOp.maxsi 0#32 (IntOp.addi (IntOp.subi ri rj) 32#32))) 65#32

/-- The chain bin of a pair: 5 on one chain or across entities, else the symmetry offset plus 2 clipped to [0, 4]. -/
def dChain (ai aj ei ej si sj : BitVec 32) : BitVec 32 :=
  Scalar.select (IntOp.ori (IntOp.cmpi .eq ai aj) (~~~(IntOp.cmpi .eq ei ej))) 5#32
    (IntOp.minsi 4#32 (IntOp.maxsi 0#32 (IntOp.addi (IntOp.subi si sj) 2#32)))

/-- A bit as the extended real 0 or 1. -/
def bit (b : BitVec 1) : EReal := FloatOps.uitofp (F := Ideal) .f32 b

/-- Entry k of the one-hot row of bin d. -/
def hot (d : BitVec 32) (k : Nat) : EReal := bit (IntOp.cmpi .eq d (BitVec.ofNat 32 k))

/-- A bit widened to 32 bits and read signed is the bit read unsigned. -/
theorem sitofp_widen (b : BitVec 1) : FloatOps.sitofp (F := Ideal) .f32 (b.setWidth 32) = bit b := by
  by_cases h : b = 1#1
  · subst h; rfl
  · have h0 : b = 0#1 := eq_zero_of_ne_one h
    subst h0; rfl

/-- Flipping a bit against the set bit is its complement. -/
theorem xor_one (b : BitVec 1) : IntOp.xori b 1#1 = ~~~b := by
  by_cases h : b = 1#1
  · subst h; rfl
  · have h0 : b = 0#1 := eq_zero_of_ne_one h
    subst h0; rfl

/-- The feature row of a pair, entry f of 115, from the ids of the two tokens and the pair's 42 given features. -/
def feat (ai aj si sj ei ej ri rj : BitVec 32) (tok : Fin 42 → EReal) (f : Fin 115) : EReal :=
  if h : f.val < 66 then hot (dRes ai aj ri rj) f.val
  else if h2 : f.val < 108 then tok ⟨f.val - 66, by omega⟩
  else if h3 : f.val < 109 then bit (IntOp.cmpi .eq ei ej)
  else hot (dChain ai aj ei ej si sj) (f.val - 109)

/-- A sum over 115 rows, band by band: 66, then 42, then 1, then 6. -/
theorem sum_bands {M : Type*} [AddCommMonoid M] (g : Fin 115 → M) :
    ∑ f : Fin 115, g f
      = ((∑ k : Fin 66, g ⟨k.val, by omega⟩) + (∑ k : Fin 42, g ⟨66 + k.val, by omega⟩))
        + (∑ k : Fin 6, g ⟨109 + k.val, by omega⟩) + g ⟨108, by omega⟩ := by
  have e1 := Fin.sum_univ_add (a := 109) (b := 6) (f := fun f : Fin (109 + 6) => g ⟨f.val, by omega⟩)
  have e2 := Fin.sum_univ_add (a := 108) (b := 1) (f := fun f : Fin (108 + 1) => g ⟨f.val, by omega⟩)
  have e3 := Fin.sum_univ_add (a := 66) (b := 42) (f := fun f : Fin (66 + 42) => g ⟨f.val, by omega⟩)
  simp only [Fin.coe_castAdd, Fin.coe_natAdd, Finset.univ_unique, Finset.sum_singleton, Fin.default_eq_zero, Fin.val_zero,
    Nat.add_zero] at e1 e2 e3
  have e0 : ∑ f : Fin 115, g f = ∑ f : Fin (109 + 6), g ⟨f.val, by omega⟩ := rfl
  rw [e0, e1]
  have e2' : (∑ k : Fin 109, g ⟨k.val, by omega⟩) = ∑ f : Fin (108 + 1), g ⟨f.val, by omega⟩ := rfl
  rw [e2', e2]
  have e3' : (∑ k : Fin 108, g ⟨k.val, by omega⟩) = ∑ f : Fin (66 + 42), g ⟨f.val, by omega⟩ := rfl
  rw [e3', e3]
  abel

end Cert.PairSpec

end
-- ==== Proof.KITile.lean ====
/-
  One tile of the kernel, entry by entry, over the extended reals.

  The body's stored value at (p, q, e) of a 64 x 64 x 128 tile, from what its loads read: with the residue and
  chain bins of the pair (query row p, key row q) computed from the eight id columns, it is
    ((sum over 66 of hot(residue bin, k) * Wpos(k, e)) + (sum over 42 of tok(p, q, k) * Wtok(k, e)))
      + (sum over 6 of hot(chain bin, k) * Wchain(k, e)) + same-entity bit * Went(e).
  Each lemma below reads one of the body's named values at an index: a column laid along rows or along columns,
  a pair matrix stacked along a third axis, the flattening of a 64 x 64 x c stack to 4096 x c and back (equal
  row-major positions: row p * 64 + q), and the three small matrix products.
-/
import proofs.«116782_j43044162241209_2_alg».proof.Proof.Gen.KernelIdeal.Skeleton
import proofs.«116782_j43044162241209_2_alg».proof.Proof.LibMatmul
import proofs.«116782_j43044162241209_2_alg».proof.Proof.Spec
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.Tile

open Idealize.ShloMosaic Idealize.ShloMosaic.ValueIdx Idealize.ShloMosaic.View
open Cert.KernelIdeal Cert.KernelIdeal.Gen Cert.PairSpec

/-! ## Columns laid out over the pair matrix -/

/-- A [64, 1] column flattened, recast as a column and spread along the second axis: entry (p, q) is row p. -/
theorem along_rows {α : Type} (v : S64x1.Idx → α) (h1 : S64x1.ShapeCasts S64) (h2 : S64.ShapeCasts S64x1) (h3 : S64x1.Broadcasts S64x64)
    (p q : Fin 64) :
    broadcastTo S64x64 (shapeCast S64x1 (shapeCast S64 v h1) h2) h3 (ix2 p q) = v (ix2 p 0) := by
  rw [broadcastTo_apply _ h3 (ix2 p q) (ix2 p 0) (fun a => by
        match a with
        | ⟨0, _⟩ => show p.val = if (64 : Nat) = 1 then 0 else p.val; rw [if_neg (by decide)]
        | ⟨1, _⟩ => show (0 : Nat) = if (1 : Nat) = 1 then 0 else q.val; rw [if_pos rfl])]
  rw [shapeCast_apply _ h2 (ix2 p 0) (ix1 p) (by rw [Shape.rowMajor_val_one, Shape.rowMajor_val_two]; show p.val = p.val * 1 + 0; omega)]
  rw [shapeCast_apply _ h1 (ix1 p) (ix2 p 0) (by rw [Shape.rowMajor_val_one, Shape.rowMajor_val_two]; show p.val * 1 + 0 = p.val; omega)]

/-- A [64, 1] column flattened, recast as a row and spread along the first axis: entry (p, q) is row q. -/
theorem along_cols {α : Type} (v : S64x1.Idx → α) (h1 : S64x1.ShapeCasts S64) (h2 : S64.ShapeCasts S1x64) (h3 : S1x64.Broadcasts S64x64)
    (p q : Fin 64) :
    broadcastTo S64x64 (shapeCast S1x64 (shapeCast S64 v h1) h2) h3 (ix2 p q) = v (ix2 q 0) := by
  rw [broadcastTo_apply _ h3 (ix2 p q) (ix2 0 q) (fun a => by
        match a with
        | ⟨0, _⟩ => show (0 : Nat) = if (1 : Nat) = 1 then 0 else p.val; rw [if_pos rfl]
        | ⟨1, _⟩ => show q.val = if (64 : Nat) = 1 then 0 else q.val; rw [if_neg (by decide)])]
  rw [shapeCast_apply _ h2 (ix2 0 q) (ix1 q) (by rw [Shape.rowMajor_val_one, Shape.rowMajor_val_two]; show q.val = 0 * 64 + q.val; omega)]
  rw [shapeCast_apply _ h1 (ix1 q) (ix2 q 0) (by rw [Shape.rowMajor_val_one, Shape.rowMajor_val_two]; show q.val * 1 + 0 = q.val; omega)]

/-- The same two layouts of an already flattened column. -/
theorem flat_rows {α : Type} (v : S64.Idx → α) (h2 : S64.ShapeCasts S64x1) (h3 : S64x1.Broadcasts S64x64) (p q : Fin 64) :
    broadcastTo S64x64 (shapeCast S64x1 v h2) h3 (ix2 p q) = v (ix1 p) := by
  rw [broadcastTo_apply _ h3 (ix2 p q) (ix2 p 0) (fun a => by
        match a with
        | ⟨0, _⟩ => show p.val = if (64 : Nat) = 1 then 0 else p.val; rw [if_neg (by decide)]
        | ⟨1, _⟩ => show (0 : Nat) = if (1 : Nat) = 1 then 0 else q.val; rw [if_pos rfl])]
  rw [shapeCast_apply _ h2 (ix2 p 0) (ix1 p) (by rw [Shape.rowMajor_val_one, Shape.rowMajor_val_two]; show p.val = p.val * 1 + 0; omega)]

theorem flat_cols {α : Type} (v : S64.Idx → α) (h2 : S64.ShapeCasts S1x64) (h3 : S1x64.Broadcasts S64x64) (p q : Fin 64) :
    broadcastTo S64x64 (shapeCast S1x64 v h2) h3 (ix2 p q) = v (ix1 q) := by
  rw [broadcastTo_apply _ h3 (ix2 p q) (ix2 0 q) (fun a => by
        match a with
        | ⟨0, _⟩ => show (0 : Nat) = if (1 : Nat) = 1 then 0 else p.val; rw [if_pos rfl]
        | ⟨1, _⟩ => show q.val = if (64 : Nat) = 1 then 0 else q.val; rw [if_neg (by decide)])]
  rw [shapeCast_apply _ h2 (ix2 0 q) (ix1 q) (by rw [Shape.rowMajor_val_one, Shape.rowMajor_val_two]; show q.val = 0 * 64 + q.val; omega)]

/-- A flattened column at row p. -/
theorem flat_apply {α : Type} (v : S64x1.Idx → α) (h1 : S64x1.ShapeCasts S64) (p : Fin 64) : shapeCast S64 v h1 (ix1 p) = v (ix2 p 0) :=
  shapeCast_apply _ h1 (ix1 p) (ix2 p 0) (by rw [Shape.rowMajor_val_one, Shape.rowMajor_val_two]; show p.val * 1 + 0 = p.val; omega)

/-! ## The integer payloads at a pair -/

variable {F : FTy → Type} [FloatOps F]

/-- Same chain (and, with the entity columns, same entity) at (p, q). -/
theorem pay4_apply (v0 v8 : Vec F S64x1 .i32) (p q : Fin 64) :
    k0_pay4 (F := F) v0 v8 (ix2 p q) = IntOp.cmpi .eq (v0 (ix2 p 0)) (v8 (ix2 q 0)) := by
  unfold k0_pay4
  show IntOp.cmpi .eq (broadcastTo S64x64 _ _ (ix2 p q)) (broadcastTo S64x64 _ _ (ix2 p q)) = _
  rw [along_rows, along_cols]

theorem pay5_apply (v4 v12 : Vec F S64x1 .i32) (p q : Fin 64) :
    k0_pay5 (F := F) v4 v12 (ix2 p q) = IntOp.cmpi .eq (v4 (ix2 p 0)) (v12 (ix2 q 0)) := by
  unfold k0_pay5
  show IntOp.cmpi .eq (broadcastTo S64x64 _ _ (ix2 p q)) (broadcastTo S64x64 _ _ (ix2 p q)) = _
  rw [along_rows, along_cols]

/-- The clipped residue offset at (p, q). -/
theorem pay6_apply (v6 v14 : Vec F S64x1 .i32) (p q : Fin 64) :
    k0_pay6 (F := F) v6 v14 (ix2 p q)
      = IntOp.minsi 64#32 (IntOp.maxsi 0#32 (IntOp.addi (IntOp.subi (v6 (ix2 p 0)) (v14 (ix2 q 0))) 32#32)) := by
  unfold k0_pay6
  show IntOp.minsi 64#32 (IntOp.maxsi 0#32 (IntOp.addi (IntOp.subi (broadcastTo S64x64 _ _ (ix2 p q)) (broadcastTo S64x64 _ _ (ix2 p q))) 32#32)) = _
  rw [along_rows, along_cols]

theorem pay2_apply (v2 : Vec F S64x1 .i32) (p : Fin 64) : k0_pay2 (F := F) v2 (ix1 p) = v2 (ix2 p 0) := by
  unfold k0_pay2; exact flat_apply _ _ p

theorem pay3_apply (v10 : Vec F S64x1 .i32) (p : Fin 64) : k0_pay3 (F := F) v10 (ix1 p) = v10 (ix2 p 0) := by
  unfold k0_pay3; exact flat_apply _ _ p

/-! ## Stacks over the pair matrix and their flattenings -/

/-- A pair matrix given a unit third axis and spread along it: entry (p, q, k) is entry (p, q). -/
theorem stack_apply {α : Type} (c : Nat) (x : S64x64.Idx → α) (h1 : S64x64.ShapeCasts S64x64x1)
    (h2 : S64x64x1.Broadcasts ⟨3, ![64, 64, c]⟩) (p q : Fin 64) (k : Fin c) :
    broadcastTo ⟨3, ![64, 64, c]⟩ (shapeCast S64x64x1 x h1) h2 (ix3 p q k) = x (ix2 p q) := by
  rw [broadcastTo_apply _ h2 (ix3 p q k) (ix3 p q 0) (fun a => by
        match a with
        | ⟨0, _⟩ => show p.val = if (64 : Nat) = 1 then 0 else p.val; rw [if_neg (by decide)]
        | ⟨1, _⟩ => show q.val = if (64 : Nat) = 1 then 0 else q.val; rw [if_neg (by decide)]
        | ⟨2, _⟩ => show (0 : Nat) = if (1 : Nat) = 1 then 0 else k.val; rw [if_pos rfl])]
  rw [shapeCast_apply _ h1 (ix3 p q 0) (ix2 p q) (by
        rw [Shape.rowMajor_val_two, Shape.rowMajor_val_three]; show p.val * 64 + q.val = (p.val * 64 + q.val) * 1 + 0; omega)]

/-- The row of the flattened 64 x 64 pair matrix that holds pair (p, q). -/
abbrev pairRow (p q : Fin 64) : Fin 4096 := ⟨p.val * 64 + q.val, by have := p.isLt; have := q.isLt; omega⟩

/-- A 64 x 64 x c stack flattened to 4096 x c: row p * 64 + q is pair (p, q). -/
theorem flat3_apply {α : Type} (c : Nat) (y : (⟨3, ![64, 64, c]⟩ : Shape).Idx → α)
    (h : (⟨3, ![64, 64, c]⟩ : Shape).ShapeCasts ⟨2, ![4096, c]⟩) (p q : Fin 64) (k : Fin c) :
    shapeCast ⟨2, ![4096, c]⟩ y h (ix2 (pairRow p q) k) = y (ix3 p q k) :=
  shapeCast_apply _ h (ix2 (pairRow p q) k) (ix3 p q k) (by rw [Shape.rowMajor_val_two, Shape.rowMajor_val_three]; rfl)

/-- And back: a 4096 x c matrix seen as a 64 x 64 x c stack. -/
theorem unflat3_apply {α : Type} (c : Nat) (z : (⟨2, ![4096, c]⟩ : Shape).Idx → α)
    (h : (⟨2, ![4096, c]⟩ : Shape).ShapeCasts ⟨3, ![64, 64, c]⟩) (p q : Fin 64) (k : Fin c) :
    shapeCast ⟨3, ![64, 64, c]⟩ z h (ix3 p q k) = z (ix2 (pairRow p q) k) :=
  shapeCast_apply _ h (ix3 p q k) (ix2 (pairRow p q) k) (by rw [Shape.rowMajor_val_two, Shape.rowMajor_val_three]; rfl)

/-- A leading unit axis dropped, and added. -/
theorem drop_lead_apply {α : Type} (c : Nat) (y : (⟨4, ![1, 64, 64, c]⟩ : Shape).Idx → α)
    (h : (⟨4, ![1, 64, 64, c]⟩ : Shape).ShapeCasts ⟨3, ![64, 64, c]⟩) (p q : Fin 64) (k : Fin c) :
    shapeCast ⟨3, ![64, 64, c]⟩ y h (ix3 p q k) = y (ix4 0 p q k) :=
  shapeCast_apply _ h (ix3 p q k) (ix4 0 p q k) (by
    rw [Shape.rowMajor_val_three, Shape.rowMajor_val_four]
    show ((0 * 64 + p.val) * 64 + q.val) * c + k.val = (p.val * 64 + q.val) * c + k.val
    rw [Nat.zero_mul, Nat.zero_add])

theorem add_lead_apply {α : Type} (c : Nat) (y : (⟨3, ![64, 64, c]⟩ : Shape).Idx → α)
    (h : (⟨3, ![64, 64, c]⟩ : Shape).ShapeCasts ⟨4, ![1, 64, 64, c]⟩) (u : Fin 1) (p q : Fin 64) (k : Fin c) :
    shapeCast ⟨4, ![1, 64, 64, c]⟩ y h (ix4 u p q k) = y (ix3 p q k) :=
  shapeCast_apply _ h (ix4 u p q k) (ix3 p q k) (by
    rw [Shape.rowMajor_val_three, Shape.rowMajor_val_four]
    show (p.val * 64 + q.val) * c + k.val = ((u.val * 64 + p.val) * 64 + q.val) * c + k.val
    have hu : u.val = 0 := by have := u.isLt; omega
    rw [hu, Nat.zero_mul, Nat.zero_add])

/-- A one-row matrix flattened, given two unit axes and spread over the pairs: entry (p, q, e) is entry e of the row. -/
theorem row_stack_apply {α : Type} (v : S1x128.Idx → α) (h1 : S1x128.ShapeCasts S128) (h2 : S128.ShapeCasts S1x1x128)
    (h3 : S1x1x128.Broadcasts S64x64x128) (p q : Fin 64) (e : Fin 128) :
    broadcastTo S64x64x128 (shapeCast S1x1x128 (shapeCast S128 v h1) h2) h3 (ix3 p q e) = v (ix2 0 e) := by
  rw [broadcastTo_apply _ h3 (ix3 p q e) (ix3 0 0 e) (fun a => by
        match a with
        | ⟨0, _⟩ => show (0 : Nat) = if (1 : Nat) = 1 then 0 else p.val; rw [if_pos rfl]
        | ⟨1, _⟩ => show (0 : Nat) = if (1 : Nat) = 1 then 0 else q.val; rw [if_pos rfl]
        | ⟨2, _⟩ => show e.val = if (128 : Nat) = 1 then 0 else e.val; rw [if_neg (by decide)])]
  rw [shapeCast_apply _ h2 (ix3 0 0 e) (ix1 e) (by
        rw [Shape.rowMajor_val_one, Shape.rowMajor_val_three]; show e.val = (0 * 1 + 0) * 128 + e.val; omega)]
  rw [shapeCast_apply _ h1 (ix1 e) (ix2 0 e) (by
        rw [Shape.rowMajor_val_one, Shape.rowMajor_val_two]; show 0 * 128 + e.val = e.val; omega)]

/-! ## The one-hot rows -/

/-- The one-hot of a pair matrix of bins along a third axis of extent c, flattened: row (p, q), entry k. -/
theorem onehot_flat_apply (c : Nat) (d : IVec S64x64 32) (h1 : S64x64.ShapeCasts S64x64x1)
    (h2 : S64x64x1.Broadcasts ⟨3, ![64, 64, c]⟩) (hi : (⟨3, ![64, 64, c]⟩ : Shape).Iotas .tc 32 [2]) (hw : 1 < 32)
    (hb : FTy.bf16.bits < FTy.f32.bits) (h4 : (⟨3, ![64, 64, c]⟩ : Shape).ShapeCasts ⟨2, ![4096, c]⟩) (p q : Fin 64) (k : Fin c) :
    shapeCast ⟨2, ![4096, c]⟩ (truncf (F := Ideal) .bf16 (sitofp .f32 (extui 32 (cmpi .eq (broadcastTo ⟨3, ![64, 64, c]⟩ (shapeCast S64x64x1 d h1) h2)
        (iota .tc ⟨3, ![64, 64, c]⟩ 32 [2] hi)) hw)) hb) h4 (ix2 (pairRow p q) k) = hot (d (ix2 p q)) k.val := by
  rw [flat3_apply]
  show FloatOps.sitofp (F := Ideal) .f32 ((IntOp.cmpi .eq (broadcastTo ⟨3, ![64, 64, c]⟩ (shapeCast S64x64x1 d h1) h2 (ix3 p q k))
      (iota .tc ⟨3, ![64, 64, c]⟩ 32 [2] hi (ix3 p q k))).setWidth 32) = _
  rw [stack_apply, iota_single_apply, sitofp_widen]
  rfl

/-- The chain one-hot, flattened: row (p, q), entry k, from the flattened symmetry columns and the two masks. -/
theorem pay9_apply (v3 v11 : IVec S64 32) (v20 v25 : IVec S64x64 1) (p q : Fin 64) (k : Fin 6) :
    k0_pay9 (F := Ideal) v3 v11 v20 v25 (ix2 (pairRow p q) k)
      = hot (Scalar.select (IntOp.ori (v20 (ix2 p q)) (~~~(v25 (ix2 p q)))) 5#32
          (IntOp.minsi 4#32 (IntOp.maxsi 0#32 (IntOp.addi (IntOp.subi (v3 (ix1 p)) (v11 (ix1 q))) 2#32)))) k.val := by
  unfold k0_pay9
  refine (onehot_flat_apply 6 _ _ _ _ _ _ _ p q k).trans ?_
  show hot (Scalar.select (IntOp.ori (v20 (ix2 p q)) (IntOp.xori (v25 (ix2 p q)) 1#1)) 5#32
      (IntOp.minsi 4#32 (IntOp.maxsi 0#32 (IntOp.addi (IntOp.subi (broadcastTo S64x64 _ _ (ix2 p q)) (broadcastTo S64x64 _ _ (ix2 p q))) 2#32)))) k.val = _
  rw [flat_rows, flat_cols, xor_one]

/-! ## The matrix products -/

/-- A weight band as the body passes it to the product (recast to its own shape, format changed): unchanged. -/
theorem band_apply (K : Nat) (w : FVec Ideal ⟨2, ![K, 128]⟩ .f32) (h : (⟨2, ![K, 128]⟩ : Shape).ShapeCasts ⟨2, ![K, 128]⟩)
    (hb : FTy.bf16.bits < FTy.f32.bits) (k : Fin K) (e : Fin 128) :
    truncf (F := Ideal) .bf16 (shapeCast ⟨2, ![K, 128]⟩ w h) hb (ix2 k e) = w (ix2 k e) := by
  show shapeCast ⟨2, ![K, 128]⟩ w h (ix2 k e) = _
  rw [shapeCast_self]

/-- The pair features flattened: row (p, q), entry k. -/
theorem tok_flat_apply (v66 : Vec Ideal S1x64x64x42 .f32) (h1 : S1x64x64x42.ShapeCasts S64x64x42) (hb : FTy.bf16.bits < FTy.f32.bits)
    (h2 : S64x64x42.ShapeCasts S4096x42) (p q : Fin 64) (k : Fin 42) :
    shapeCast S4096x42 (truncf (F := Ideal) .bf16 (shapeCast S64x64x42 v66 h1) hb) h2 (ix2 (pairRow p q) k) = v66 (ix4 0 p q k) :=
  (flat3_apply 42 _ h2 p q k).trans (drop_lead_apply 42 v66 h1 p q k)

/-- The residue and token bands: row (p, q), column e of the sum of the two products. -/
theorem pay8_apply (v20 : IVec S64x64 1) (v36 v37 : IVec S64x64 32) (v62 : Vec Ideal S66x128 .f32) (v66 : Vec Ideal S1x64x64x42 .f32)
    (v70 : Vec Ideal S42x128 .f32) (p q : Fin 64) (e : Fin 128) :
    k0_pay8 (F := Ideal) v20 v36 v37 v62 v66 v70 (ix2 (pairRow p q) e)
      = (∑ k : Fin 66, hot (Scalar.select (v20 (ix2 p q)) (v36 (ix2 p q)) (v37 (ix2 p q))) k.val * v62 (ix2 k e))
        + ∑ k : Fin 42, v66 (ix4 0 p q k) * v70 (ix2 k e) := by
  unfold k0_pay8
  show matmul (DotDims.plain 4096 66 128) none _ _ (constant ⟨2, ![4096, 128]⟩ .f32 0x00000000#32) (ix2 (pairRow p q) e)
     + matmul (DotDims.plain 4096 42 128) none _ _ (constant ⟨2, ![4096, 128]⟩ .f32 0x00000000#32) (ix2 (pairRow p q) e) = _
  rw [Cert.Lib.Matmul.matmul_plain_zero_apply, Cert.Lib.Matmul.matmul_plain_zero_apply]
  refine congrArg₂ (· + ·) (Finset.sum_congr rfl fun k _ => ?_) (Finset.sum_congr rfl fun k _ => ?_)
  · exact congrArg₂ (· * ·) (onehot_flat_apply 66 _ _ _ _ _ _ _ p q k) (band_apply 66 v62 _ _ k e)
  · exact congrArg₂ (· * ·) (tok_flat_apply v66 _ _ _ p q k) (band_apply 42 v70 _ _ k e)

/-- The stored value at (p, q, e): the two bands' sum, plus the chain band's product, plus the entity term. -/
theorem pay1_apply (v25 : IVec S64x64 1) (v74 : FVec Ideal S4096x128 .f32) (v82 : FVec Ideal S4096x6 .bf16) (v83 : Vec Ideal S6x128 .f32)
    (v89 : Vec Ideal S1x128 .f32) (u : Fin 1) (p q : Fin 64) (e : Fin 128) :
    k0_pay1 (F := Ideal) v25 v74 v82 v83 v89 (ix4 u p q e)
      = (v74 (ix2 (pairRow p q) e) + ∑ k : Fin 6, v82 (ix2 (pairRow p q) k) * v83 (ix2 k e)) + bit (v25 (ix2 p q)) * v89 (ix2 0 e) := by
  unfold k0_pay1
  refine (add_lead_apply 128 _ _ u p q e).trans ?_
  show shapeCast S64x64x128 (addf v74 (matmul (DotDims.plain 4096 6 128) none v82 _ (constant ⟨2, ![4096, 128]⟩ .f32 0x00000000#32))) _ (ix3 p q e)
     + (broadcastTo S64x64x128 (shapeCast S64x64x1 (sitofp (F := Ideal) .f32 (extui 32 v25 _)) _) _ (ix3 p q e))
        * (broadcastTo S64x64x128 (shapeCast S1x1x128 (shapeCast S128 v89 _) _) _ (ix3 p q e)) = _
  rw [unflat3_apply 128, stack_apply 128, row_stack_apply]
  show (v74 (ix2 (pairRow p q) e) + matmul (DotDims.plain 4096 6 128) none v82 _ (constant ⟨2, ![4096, 128]⟩ .f32 0x00000000#32) (ix2 (pairRow p q) e))
      + FloatOps.sitofp (F := Ideal) .f32 ((v25 (ix2 p q)).setWidth 32) * v89 (ix2 0 e) = _
  rw [Cert.Lib.Matmul.matmul_plain_zero_apply, sitofp_widen]
  refine congrArg₂ (· + ·) (congrArg (v74 (ix2 (pairRow p q) e) + ·) (Finset.sum_congr rfl fun k _ => ?_)) rfl
  exact congrArg (v82 (ix2 (pairRow p q) k) * ·) (band_apply 6 v83 _ _ k e)

end Cert.KernelIdeal.Tile

end
-- ==== Proof.SpecG.lean ====
/-
  The result array as one function of the six arguments.

  `tileAt` is one entry from the ids of the pair and the rows it meets: the residue one-hot against the first 66
  weight rows, the pair's 42 features against the next 42, the chain one-hot against the last 6, and the same-entity
  bit against row 108.  `G` reads it at entry (0, i, j, c) of the result from the argument arrays.
-/
import proofs.«116782_j43044162241209_2_alg».proof.Proof.Spec

open scoped BigOperators

noncomputable section

namespace Cert.PairSpec

open Idealize.ShloMosaic Idealize.ShloMosaic.ValueIdx

/-- One entry of the result, band by band. -/
def tileAt (ai aj si sj ei ej ri rj : BitVec 32) (tok : Fin 42 → EReal) (wp : Fin 66 → EReal) (wt : Fin 42 → EReal) (we : EReal)
    (wc : Fin 6 → EReal) : EReal :=
  ((∑ k : Fin 66, hot (dRes ai aj ri rj) k.val * wp k) + ∑ k : Fin 42, tok k * wt k)
    + (∑ k : Fin 6, hot (dChain ai aj ei ej si sj) k.val * wc k) + bit (IntOp.cmpi .eq ei ej) * we

/-- The result array from the pair features, the weights and the four id rows (asym, sym, entity, residue). -/
def G (tok : (⟨4, ![1, 1024, 1024, 42]⟩ : Shape).Idx → EReal) (W : (⟨2, ![115, 128]⟩ : Shape).Idx → EReal)
    (asym sym ent res : (⟨2, ![1, 1024]⟩ : Shape).Idx → BitVec 32) : (⟨4, ![1, 1024, 1024, 128]⟩ : Shape).Idx → EReal := fun i =>
  tileAt (asym (ix2 0 (i 1 : Fin 1024))) (asym (ix2 0 (i 2 : Fin 1024))) (sym (ix2 0 (i 1 : Fin 1024))) (sym (ix2 0 (i 2 : Fin 1024)))
    (ent (ix2 0 (i 1 : Fin 1024))) (ent (ix2 0 (i 2 : Fin 1024))) (res (ix2 0 (i 1 : Fin 1024))) (res (ix2 0 (i 2 : Fin 1024)))
    (fun k => tok (ix4 0 (i 1 : Fin 1024) (i 2 : Fin 1024) k))
    (fun k => W (ix2 (⟨k.val, by omega⟩ : Fin 115) (i 3 : Fin 128)))
    (fun k => W (ix2 (⟨66 + k.val, by omega⟩ : Fin 115) (i 3 : Fin 128)))
    (W (ix2 (⟨108, by omega⟩ : Fin 115) (i 3 : Fin 128)))
    (fun k => W (ix2 (⟨109 + k.val, by omega⟩ : Fin 115) (i 3 : Fin 128)))

theorem G_apply (tok : (⟨4, ![1, 1024, 1024, 42]⟩ : Shape).Idx → EReal) (W : (⟨2, ![115, 128]⟩ : Shape).Idx → EReal)
    (asym sym ent res : (⟨2, ![1, 1024]⟩ : Shape).Idx → BitVec 32) (u : Fin 1) (P Q : Fin 1024) (e : Fin 128) :
    G tok W asym sym ent res (ix4 u P Q e)
      = tileAt (asym (ix2 0 P)) (asym (ix2 0 Q)) (sym (ix2 0 P)) (sym (ix2 0 Q)) (ent (ix2 0 P)) (ent (ix2 0 Q)) (res (ix2 0 P)) (res (ix2 0 Q))
          (fun k => tok (ix4 0 P Q k)) (fun k => W (ix2 (⟨k.val, by omega⟩ : Fin 115) e))
          (fun k => W (ix2 (⟨66 + k.val, by omega⟩ : Fin 115) e)) (W (ix2 (⟨108, by omega⟩ : Fin 115) e))
          (fun k => W (ix2 (⟨109 + k.val, by omega⟩ : Fin 115) e)) := rfl

end Cert.PairSpec

end
-- ==== Proof.KIValue.lean ====
/-
  What the kernel's result array holds after the run, over the extended reals.

  The value point (i, j) stores at (p, q, e) of its tile is `tileAt` of what its thirteen buffers hold; the buffers
  hold the windows' blocks; the blocks are rows i * 64 + p and j * 64 + q of the id columns, tile (i, j) of the pair
  features and the weight bands whole; and the id columns and the bands are the argument arrays reshaped and cut by
  the host lines.  So the tile point (i, j) writes back is tile (i, j) of `G` of the arguments.  The 256 tiles cover
  the result array (entry (0, P, Q, e) lies in the tile of point (P / 64, Q / 64)), hence the array ends at `G`.
-/
import proofs.«116782_j43044162241209_2_alg».proof.Proof.KILaunch
import proofs.«116782_j43044162241209_2_alg».proof.Proof.KITile
import proofs.«116782_j43044162241209_2_alg».proof.Proof.SpecG
import Idealize.ShloMosaic.Lib.StableHlo.Run

set_option maxRecDepth 16384

open scoped BigOperators

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Tile Cert.PairSpec

variable (m : (ℓ : Loc nD τ sig) → Buf (Elt Ideal) ℓ) (ρ : Dev nD → PrngReg)

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## The stored value at an entry -/

/-- The body's stored value at (p, q, e), from the rows and entries of its thirteen buffers it depends on. -/
theorem stored_apply (x0 : Vec Ideal S64x1 .i32) (x1 : Vec Ideal S64x1 .i32) (x2 : Vec Ideal S64x1 .i32) (x3 : Vec Ideal S64x1 .i32) (x4 : Vec Ideal S64x1 .i32) (x5 : Vec Ideal S64x1 .i32) (x6 : Vec Ideal S64x1 .i32) (x7 : Vec Ideal S64x1 .i32) (x8 : Vec Ideal S1x64x64x42 .f32) (x9 : Vec Ideal S66x128 .f32) (x10 : Vec Ideal S42x128 .f32) (x11 : Vec Ideal S1x128 .f32) (x12 : Vec Ideal S6x128 .f32) (u : Fin 1) (p q : Fin 64) (e : Fin 128) :
    stored (F := Ideal) x0 x1 x2 x3 x4 x5 x6 x7 x8 x9 x10 x11 x12 (ix4 u p q e)
      = tileAt (x0 (ix2 p 0)) (x4 (ix2 q 0)) (x1 (ix2 p 0)) (x5 (ix2 q 0)) (x2 (ix2 p 0)) (x6 (ix2 q 0)) (x3 (ix2 p 0)) (x7 (ix2 q 0))
          (fun k => x8 (ix4 0 p q k)) (fun k => x9 (ix2 k e)) (fun k => x10 (ix2 k e)) (x11 (ix2 0 e)) (fun k => x12 (ix2 k e)) := by
  unfold stored
  simp only [View.ld_unit_zero (S := S64x1) hz2, View.ld_unit_zero (S := S66x128) hz2, View.ld_unit_zero (S := S42x128) hz2,
    View.ld_unit_zero (S := S1x128) hz2, View.ld_unit_zero (S := S6x128) hz2, View.ld_unit_zero (S := S1x64x64x42) hz4]
  rw [pay1_apply, pay8_apply, pay5_apply, pay4_apply, pay6_apply]
  unfold tileAt dRes dChain
  refine congrArg₂ (· + ·) (congrArg₂ (· + ·) rfl (Finset.sum_congr rfl fun k _ => ?_)) rfl
  rw [pay9_apply, pay2_apply, pay3_apply, pay4_apply, pay5_apply]

/-! ## The arrays the kernel finds, from the arguments -/

/-- Column `main_v1` is argument row `main_arg2` stood up: entry (n, 0) is entry (0, n). -/
theorem V_main_v1_at (c : Dev nD) (n : Fin 1024) : (V m c main_v1 : S1024x1.Idx → BitVec 32) (ix2 n 0) = (m ((c : Thread nD τ).loc main_arg2)) (ix2 0 n) := by
  have e : (V m c main_v1 : S1024x1.Idx → BitVec 32)
      = shapeCast S1024x1 (shapeCast S1024 (m ((c : Thread nD τ).loc main_arg2)) shapeCasts_S1x1024_S1024) shapeCasts_S1024_S1024x1 := by
    dsimp only [V, hostOps0]; after_results; rfl
  rw [e, shapeCast_apply _ _ (ix2 n 0) (ix1 n) (by rw [Shape.rowMajor_val_one, Shape.rowMajor_val_two]; show n.val = n.val * 1 + 0; omega),
    shapeCast_apply _ _ (ix1 n) (ix2 0 n) (by rw [Shape.rowMajor_val_one, Shape.rowMajor_val_two]; show 0 * 1024 + n.val = n.val; omega)]
/-- Column `main_v3` is argument row `main_arg3` stood up: entry (n, 0) is entry (0, n). -/
theorem V_main_v3_at (c : Dev nD) (n : Fin 1024) : (V m c main_v3 : S1024x1.Idx → BitVec 32) (ix2 n 0) = (m ((c : Thread nD τ).loc main_arg3)) (ix2 0 n) := by
  have e : (V m c main_v3 : S1024x1.Idx → BitVec 32)
      = shapeCast S1024x1 (shapeCast S1024 (m ((c : Thread nD τ).loc main_arg3)) shapeCasts_S1x1024_S1024) shapeCasts_S1024_S1024x1 := by
    dsimp only [V, hostOps0]; after_results; rfl
  rw [e, shapeCast_apply _ _ (ix2 n 0) (ix1 n) (by rw [Shape.rowMajor_val_one, Shape.rowMajor_val_two]; show n.val = n.val * 1 + 0; omega),
    shapeCast_apply _ _ (ix1 n) (ix2 0 n) (by rw [Shape.rowMajor_val_one, Shape.rowMajor_val_two]; show 0 * 1024 + n.val = n.val; omega)]
/-- Column `main_v5` is argument row `main_arg4` stood up: entry (n, 0) is entry (0, n). -/
theorem V_main_v5_at (c : Dev nD) (n : Fin 1024) : (V m c main_v5 : S1024x1.Idx → BitVec 32) (ix2 n 0) = (m ((c : Thread nD τ).loc main_arg4)) (ix2 0 n) := by
  have e : (V m c main_v5 : S1024x1.Idx → BitVec 32)
      = shapeCast S1024x1 (shapeCast S1024 (m ((c : Thread nD τ).loc main_arg4)) shapeCasts_S1x1024_S1024) shapeCasts_S1024_S1024x1 := by
    dsimp only [V, hostOps0]; after_results; rfl
  rw [e, shapeCast_apply _ _ (ix2 n 0) (ix1 n) (by rw [Shape.rowMajor_val_one, Shape.rowMajor_val_two]; show n.val = n.val * 1 + 0; omega),
    shapeCast_apply _ _ (ix1 n) (ix2 0 n) (by rw [Shape.rowMajor_val_one, Shape.rowMajor_val_two]; show 0 * 1024 + n.val = n.val; omega)]
/-- Column `main_v7` is argument row `main_arg5` stood up: entry (n, 0) is entry (0, n). -/
theorem V_main_v7_at (c : Dev nD) (n : Fin 1024) : (V m c main_v7 : S1024x1.Idx → BitVec 32) (ix2 n 0) = (m ((c : Thread nD τ).loc main_arg5)) (ix2 0 n) := by
  have e : (V m c main_v7 : S1024x1.Idx → BitVec 32)
      = shapeCast S1024x1 (shapeCast S1024 (m ((c : Thread nD τ).loc main_arg5)) shapeCasts_S1x1024_S1024) shapeCasts_S1024_S1024x1 := by
    dsimp only [V, hostOps0]; after_results; rfl
  rw [e, shapeCast_apply _ _ (ix2 n 0) (ix1 n) (by rw [Shape.rowMajor_val_one, Shape.rowMajor_val_two]; show n.val = n.val * 1 + 0; omega),
    shapeCast_apply _ _ (ix1 n) (ix2 0 n) (by rw [Shape.rowMajor_val_one, Shape.rowMajor_val_two]; show 0 * 1024 + n.val = n.val; omega)]

/-- Band `main_v8` is rows 0 … of the weight matrix. -/
theorem V_main_v8_at (c : Dev nD) (k : Fin 66) (e : Fin 128) :
    (V m c main_v8 : S66x128.Idx → EReal) (ix2 k e) = (m ((c : Thread nD τ).loc main_arg1)) (ix2 (⟨k.val, by have := k.isLt; omega⟩ : Fin 115) e) := by
  have h : (V m c main_v8 : S66x128.Idx → EReal) = extractStridedSlice S66x128 ![0, 0] (m ((c : Thread nD τ).loc main_arg1)) slices_S115x128_S66x128_0_0 := by
    dsimp only [V, hostOps0]; after_results
  rw [h]
  exact extractStridedSlice_apply _ _ slices_S115x128_S66x128_0_0 (ix2 k e) (ix2 (⟨k.val, by have := k.isLt; omega⟩ : Fin 115) e) (fun a => by
    match a with
    | ⟨0, _⟩ => show k.val = 0 + k.val; omega
    | ⟨1, _⟩ => show e.val = 0 + e.val; omega)
/-- Band `main_v9` is rows 66 … of the weight matrix. -/
theorem V_main_v9_at (c : Dev nD) (k : Fin 42) (e : Fin 128) :
    (V m c main_v9 : S42x128.Idx → EReal) (ix2 k e) = (m ((c : Thread nD τ).loc main_arg1)) (ix2 (⟨66 + k.val, by have := k.isLt; omega⟩ : Fin 115) e) := by
  have h : (V m c main_v9 : S42x128.Idx → EReal) = extractStridedSlice S42x128 ![66, 0] (m ((c : Thread nD τ).loc main_arg1)) slices_S115x128_S42x128_66_0 := by
    dsimp only [V, hostOps0]; after_results
  rw [h]
  exact extractStridedSlice_apply _ _ slices_S115x128_S42x128_66_0 (ix2 k e) (ix2 (⟨66 + k.val, by have := k.isLt; omega⟩ : Fin 115) e) (fun a => by
    match a with
    | ⟨0, _⟩ => rfl
    | ⟨1, _⟩ => show e.val = 0 + e.val; omega)
/-- Band `main_v10` is rows 108 … of the weight matrix. -/
theorem V_main_v10_at (c : Dev nD) (k : Fin 1) (e : Fin 128) :
    (V m c main_v10 : S1x128.Idx → EReal) (ix2 k e) = (m ((c : Thread nD τ).loc main_arg1)) (ix2 (⟨108 + k.val, by have := k.isLt; omega⟩ : Fin 115) e) := by
  have h : (V m c main_v10 : S1x128.Idx → EReal) = extractStridedSlice S1x128 ![108, 0] (m ((c : Thread nD τ).loc main_arg1)) slices_S115x128_S1x128_108_0 := by
    dsimp only [V, hostOps0]; after_results
  rw [h]
  exact extractStridedSlice_apply _ _ slices_S115x128_S1x128_108_0 (ix2 k e) (ix2 (⟨108 + k.val, by have := k.isLt; omega⟩ : Fin 115) e) (fun a => by
    match a with
    | ⟨0, _⟩ => rfl
    | ⟨1, _⟩ => show e.val = 0 + e.val; omega)
/-- Band `main_v11` is rows 109 … of the weight matrix. -/
theorem V_main_v11_at (c : Dev nD) (k : Fin 6) (e : Fin 128) :
    (V m c main_v11 : S6x128.Idx → EReal) (ix2 k e) = (m ((c : Thread nD τ).loc main_arg1)) (ix2 (⟨109 + k.val, by have := k.isLt; omega⟩ : Fin 115) e) := by
  have h : (V m c main_v11 : S6x128.Idx → EReal) = extractStridedSlice S6x128 ![109, 0] (m ((c : Thread nD τ).loc main_arg1)) slices_S115x128_S6x128_109_0 := by
    dsimp only [V, hostOps0]; after_results
  rw [h]
  exact extractStridedSlice_apply _ _ slices_S115x128_S6x128_109_0 (ix2 k e) (ix2 (⟨109 + k.val, by have := k.isLt; omega⟩ : Fin 115) e) (fun a => by
    match a with
    | ⟨0, _⟩ => rfl
    | ⟨1, _⟩ => show e.val = 0 + e.val; omega)

/-! ## The windows' block indices over the grid -/

theorem idxQ : ∀ t : Fin cfg0.N, win0_0.index t (0 : Fin 2) = win0_13.index t (1 : Fin 4) ∧ win0_0.index t (1 : Fin 2) = 0
    ∧ win0_1.index t (0 : Fin 2) = win0_13.index t (1 : Fin 4) ∧ win0_1.index t (1 : Fin 2) = 0
    ∧ win0_2.index t (0 : Fin 2) = win0_13.index t (1 : Fin 4) ∧ win0_2.index t (1 : Fin 2) = 0
    ∧ win0_3.index t (0 : Fin 2) = win0_13.index t (1 : Fin 4) ∧ win0_3.index t (1 : Fin 2) = 0 :=
  (by decide +kernel : ∀ t : Fin grid0.N, _)

theorem idxK : ∀ t : Fin cfg0.N, win0_4.index t (0 : Fin 2) = win0_13.index t (2 : Fin 4) ∧ win0_4.index t (1 : Fin 2) = 0
    ∧ win0_5.index t (0 : Fin 2) = win0_13.index t (2 : Fin 4) ∧ win0_5.index t (1 : Fin 2) = 0
    ∧ win0_6.index t (0 : Fin 2) = win0_13.index t (2 : Fin 4) ∧ win0_6.index t (1 : Fin 2) = 0
    ∧ win0_7.index t (0 : Fin 2) = win0_13.index t (2 : Fin 4) ∧ win0_7.index t (1 : Fin 2) = 0 :=
  (by decide +kernel : ∀ t : Fin grid0.N, _)

theorem idxT : ∀ t : Fin cfg0.N, win0_8.index t (0 : Fin 4) = 0 ∧ win0_8.index t (1 : Fin 4) = win0_13.index t (1 : Fin 4)
    ∧ win0_8.index t (2 : Fin 4) = win0_13.index t (2 : Fin 4) ∧ win0_8.index t (3 : Fin 4) = 0 :=
  (by decide +kernel : ∀ t : Fin grid0.N, _)

theorem idxW : ∀ t : Fin cfg0.N, win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

theorem idxO : ∀ t : Fin cfg0.N, win0_13.index t (0 : Fin 4) = 0 ∧ win0_13.index t (3 : Fin 4) = 0
    ∧ win0_13.index t (1 : Fin 4) ≤ 15 ∧ win0_13.index t (2 : Fin 4) ≤ 15 :=
  (by decide +kernel : ∀ t : Fin grid0.N, _)

/-- Every tile of the 16 x 16 tiling is some point's. -/
theorem idx_onto : ∀ (a b : Fin 16), ∃ t : Fin cfg0.N, win0_13.index t (1 : Fin 4) = a.val ∧ win0_13.index t (2 : Fin 4) = b.val :=
  (by decide +kernel : ∀ (a b : Fin 16), ∃ t : Fin grid0.N, win0_13.index t (1 : Fin 4) = a.val ∧ win0_13.index t (2 : Fin 4) = b.val)

/-! ## The blocks, read back to the arguments -/

/-- The result array the run ends with, on core `c`. -/
def Gm (c : Dev nD) : S1x1024x1024x128.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- Query-side id column 0 at point `t`: row p of the block is row I * 64 + p of the argument. -/
theorem blk0_at (c : Dev nD) (t : Fin cfg0.N) (p : Fin 64) (P : Fin 1024) (hP : P.val = win0_13.index t (1 : Fin 4) * 64 + p.val) :
    (iblk m c 0 t : S64x1.Idx → BitVec 32) (ix2 p 0) = (m ((c : Thread nD τ).loc main_arg2)) (ix2 0 P) := by
  obtain ⟨a0, a1, b0, b1, c0, c1, d0, d1⟩ := idxQ t
  show (V m c main_v1 : S1024x1.Idx → BitVec 32) (((cfg0.win 0).blk t).view.emb (ix2 p 0)) = _
  have he : ((cfg0.win 0).blk t).view.emb (ix2 p 0) = (ix2 P 0 : S1024x1.Idx) := by
    funext a; apply Fin.ext
    match a with
    | ⟨0, _⟩ => show win0_0.index t (0 : Fin 2) * 64 + 1 * p.val = P.val; omega
    | ⟨1, _⟩ => show win0_0.index t (1 : Fin 2) * 1 + 1 * 0 = 0; omega
  rw [he]; exact V_main_v1_at m c P
/-- Query-side id column 1 at point `t`: row p of the block is row I * 64 + p of the argument. -/
theorem blk1_at (c : Dev nD) (t : Fin cfg0.N) (p : Fin 64) (P : Fin 1024) (hP : P.val = win0_13.index t (1 : Fin 4) * 64 + p.val) :
    (iblk m c 1 t : S64x1.Idx → BitVec 32) (ix2 p 0) = (m ((c : Thread nD τ).loc main_arg3)) (ix2 0 P) := by
  obtain ⟨a0, a1, b0, b1, c0, c1, d0, d1⟩ := idxQ t
  show (V m c main_v3 : S1024x1.Idx → BitVec 32) (((cfg0.win 1).blk t).view.emb (ix2 p 0)) = _
  have he : ((cfg0.win 1).blk t).view.emb (ix2 p 0) = (ix2 P 0 : S1024x1.Idx) := by
    funext a; apply Fin.ext
    match a with
    | ⟨0, _⟩ => show win0_1.index t (0 : Fin 2) * 64 + 1 * p.val = P.val; omega
    | ⟨1, _⟩ => show win0_1.index t (1 : Fin 2) * 1 + 1 * 0 = 0; omega
  rw [he]; exact V_main_v3_at m c P
/-- Query-side id column 2 at point `t`: row p of the block is row I * 64 + p of the argument. -/
theorem blk2_at (c : Dev nD) (t : Fin cfg0.N) (p : Fin 64) (P : Fin 1024) (hP : P.val = win0_13.index t (1 : Fin 4) * 64 + p.val) :
    (iblk m c 2 t : S64x1.Idx → BitVec 32) (ix2 p 0) = (m ((c : Thread nD τ).loc main_arg4)) (ix2 0 P) := by
  obtain ⟨a0, a1, b0, b1, c0, c1, d0, d1⟩ := idxQ t
  show (V m c main_v5 : S1024x1.Idx → BitVec 32) (((cfg0.win 2).blk t).view.emb (ix2 p 0)) = _
  have he : ((cfg0.win 2).blk t).view.emb (ix2 p 0) = (ix2 P 0 : S1024x1.Idx) := by
    funext a; apply Fin.ext
    match a with
    | ⟨0, _⟩ => show win0_2.index t (0 : Fin 2) * 64 + 1 * p.val = P.val; omega
    | ⟨1, _⟩ => show win0_2.index t (1 : Fin 2) * 1 + 1 * 0 = 0; omega
  rw [he]; exact V_main_v5_at m c P
/-- Query-side id column 3 at point `t`: row p of the block is row I * 64 + p of the argument. -/
theorem blk3_at (c : Dev nD) (t : Fin cfg0.N) (p : Fin 64) (P : Fin 1024) (hP : P.val = win0_13.index t (1 : Fin 4) * 64 + p.val) :
    (iblk m c 3 t : S64x1.Idx → BitVec 32) (ix2 p 0) = (m ((c : Thread nD τ).loc main_arg5)) (ix2 0 P) := by
  obtain ⟨a0, a1, b0, b1, c0, c1, d0, d1⟩ := idxQ t
  show (V m c main_v7 : S1024x1.Idx → BitVec 32) (((cfg0.win 3).blk t).view.emb (ix2 p 0)) = _
  have he : ((cfg0.win 3).blk t).view.emb (ix2 p 0) = (ix2 P 0 : S1024x1.Idx) := by
    funext a; apply Fin.ext
    match a with
    | ⟨0, _⟩ => show win0_3.index t (0 : Fin 2) * 64 + 1 * p.val = P.val; omega
    | ⟨1, _⟩ => show win0_3.index t (1 : Fin 2) * 1 + 1 * 0 = 0; omega
  rw [he]; exact V_main_v7_at m c P

/-- Key-side id column 4 at point `t`: row q of the block is row J * 64 + q of the argument. -/
theorem blk4_at (c : Dev nD) (t : Fin cfg0.N) (q : Fin 64) (Q : Fin 1024) (hQ : Q.val = win0_13.index t (2 : Fin 4) * 64 + q.val) :
    (iblk m c 4 t : S64x1.Idx → BitVec 32) (ix2 q 0) = (m ((c : Thread nD τ).loc main_arg2)) (ix2 0 Q) := by
  obtain ⟨a0, a1, b0, b1, c0, c1, d0, d1⟩ := idxK t
  show (V m c main_v1 : S1024x1.Idx → BitVec 32) (((cfg0.win 4).blk t).view.emb (ix2 q 0)) = _
  have he : ((cfg0.win 4).blk t).view.emb (ix2 q 0) = (ix2 Q 0 : S1024x1.Idx) := by
    funext a; apply Fin.ext
    match a with
    | ⟨0, _⟩ => show win0_4.index t (0 : Fin 2) * 64 + 1 * q.val = Q.val; omega
    | ⟨1, _⟩ => show win0_4.index t (1 : Fin 2) * 1 + 1 * 0 = 0; omega
  rw [he]; exact V_main_v1_at m c Q
/-- Key-side id column 5 at point `t`: row q of the block is row J * 64 + q of the argument. -/
theorem blk5_at (c : Dev nD) (t : Fin cfg0.N) (q : Fin 64) (Q : Fin 1024) (hQ : Q.val = win0_13.index t (2 : Fin 4) * 64 + q.val) :
    (iblk m c 5 t : S64x1.Idx → BitVec 32) (ix2 q 0) = (m ((c : Thread nD τ).loc main_arg3)) (ix2 0 Q) := by
  obtain ⟨a0, a1, b0, b1, c0, c1, d0, d1⟩ := idxK t
  show (V m c main_v3 : S1024x1.Idx → BitVec 32) (((cfg0.win 5).blk t).view.emb (ix2 q 0)) = _
  have he : ((cfg0.win 5).blk t).view.emb (ix2 q 0) = (ix2 Q 0 : S1024x1.Idx) := by
    funext a; apply Fin.ext
    match a with
    | ⟨0, _⟩ => show win0_5.index t (0 : Fin 2) * 64 + 1 * q.val = Q.val; omega
    | ⟨1, _⟩ => show win0_5.index t (1 : Fin 2) * 1 + 1 * 0 = 0; omega
  rw [he]; exact V_main_v3_at m c Q
/-- Key-side id column 6 at point `t`: row q of the block is row J * 64 + q of the argument. -/
theorem blk6_at (c : Dev nD) (t : Fin cfg0.N) (q : Fin 64) (Q : Fin 1024) (hQ : Q.val = win0_13.index t (2 : Fin 4) * 64 + q.val) :
    (iblk m c 6 t : S64x1.Idx → BitVec 32) (ix2 q 0) = (m ((c : Thread nD τ).loc main_arg4)) (ix2 0 Q) := by
  obtain ⟨a0, a1, b0, b1, c0, c1, d0, d1⟩ := idxK t
  show (V m c main_v5 : S1024x1.Idx → BitVec 32) (((cfg0.win 6).blk t).view.emb (ix2 q 0)) = _
  have he : ((cfg0.win 6).blk t).view.emb (ix2 q 0) = (ix2 Q 0 : S1024x1.Idx) := by
    funext a; apply Fin.ext
    match a with
    | ⟨0, _⟩ => show win0_6.index t (0 : Fin 2) * 64 + 1 * q.val = Q.val; omega
    | ⟨1, _⟩ => show win0_6.index t (1 : Fin 2) * 1 + 1 * 0 = 0; omega
  rw [he]; exact V_main_v5_at m c Q
/-- Key-side id column 7 at point `t`: row q of the block is row J * 64 + q of the argument. -/
theorem blk7_at (c : Dev nD) (t : Fin cfg0.N) (q : Fin 64) (Q : Fin 1024) (hQ : Q.val = win0_13.index t (2 : Fin 4) * 64 + q.val) :
    (iblk m c 7 t : S64x1.Idx → BitVec 32) (ix2 q 0) = (m ((c : Thread nD τ).loc main_arg5)) (ix2 0 Q) := by
  obtain ⟨a0, a1, b0, b1, c0, c1, d0, d1⟩ := idxK t
  show (V m c main_v7 : S1024x1.Idx → BitVec 32) (((cfg0.win 7).blk t).view.emb (ix2 q 0)) = _
  have he : ((cfg0.win 7).blk t).view.emb (ix2 q 0) = (ix2 Q 0 : S1024x1.Idx) := by
    funext a; apply Fin.ext
    match a with
    | ⟨0, _⟩ => show win0_7.index t (0 : Fin 2) * 64 + 1 * q.val = Q.val; omega
    | ⟨1, _⟩ => show win0_7.index t (1 : Fin 2) * 1 + 1 * 0 = 0; omega
  rw [he]; exact V_main_v7_at m c Q

/-- The pair-feature tile at point `t`. -/
theorem blk8_at (c : Dev nD) (t : Fin cfg0.N) (p q : Fin 64) (k : Fin 42) (P Q : Fin 1024)
    (hP : P.val = win0_13.index t (1 : Fin 4) * 64 + p.val) (hQ : Q.val = win0_13.index t (2 : Fin 4) * 64 + q.val) :
    (iblk m c 8 t : S1x64x64x42.Idx → EReal) (ix4 0 p q k) = (m ((c : Thread nD τ).loc main_arg0)) (ix4 0 P Q k) := by
  obtain ⟨a0, a1, a2, a3⟩ := idxT t
  show (V m c main_arg0 : S1x1024x1024x42.Idx → EReal) (((cfg0.win 8).blk t).view.emb (ix4 0 p q k)) = _
  have he : ((cfg0.win 8).blk t).view.emb (ix4 0 p q k) = (ix4 0 P Q k : S1x1024x1024x42.Idx) := by
    funext a; apply Fin.ext
    match a with
    | ⟨0, _⟩ => show win0_8.index t (0 : Fin 4) * 1 + 1 * 0 = 0; omega
    | ⟨1, _⟩ => show win0_8.index t (1 : Fin 4) * 64 + 1 * p.val = P.val; omega
    | ⟨2, _⟩ => show win0_8.index t (2 : Fin 4) * 64 + 1 * q.val = Q.val; omega
    | ⟨3, _⟩ => show win0_8.index t (3 : Fin 4) * 42 + 1 * k.val = k.val; omega
  rw [he, V_main_arg0]

/-- Weight band 9, whole at every point. -/
theorem blk9_at (c : Dev nD) (t : Fin cfg0.N) (k : Fin 66) (e : Fin 128) :
    (iblk m c 9 t : S66x128.Idx → EReal) (ix2 k e) = (m ((c : Thread nD τ).loc main_arg1)) (ix2 (⟨k.val, by have := k.isLt; omega⟩ : Fin 115) e) := by
  obtain ⟨a0, a1, b0, b1, c0, c1, d0, d1⟩ := idxW t
  show (V m c main_v8 : S66x128.Idx → EReal) (((cfg0.win 9).blk t).view.emb (ix2 k e)) = _
  have he : ((cfg0.win 9).blk t).view.emb (ix2 k e) = (ix2 k e : S66x128.Idx) := by
    funext a; apply Fin.ext
    match a with
    | ⟨0, _⟩ => show win0_9.index t (0 : Fin 2) * 66 + 1 * k.val = k.val; omega
    | ⟨1, _⟩ => show win0_9.index t (1 : Fin 2) * 128 + 1 * e.val = e.val; omega
  rw [he]; exact V_main_v8_at m c k e
/-- Weight band 10, whole at every point. -/
theorem blk10_at (c : Dev nD) (t : Fin cfg0.N) (k : Fin 42) (e : Fin 128) :
    (iblk m c 10 t : S42x128.Idx → EReal) (ix2 k e) = (m ((c : Thread nD τ).loc main_arg1)) (ix2 (⟨66 + k.val, by have := k.isLt; omega⟩ : Fin 115) e) := by
  obtain ⟨a0, a1, b0, b1, c0, c1, d0, d1⟩ := idxW t
  show (V m c main_v9 : S42x128.Idx → EReal) (((cfg0.win 10).blk t).view.emb (ix2 k e)) = _
  have he : ((cfg0.win 10).blk t).view.emb (ix2 k e) = (ix2 k e : S42x128.Idx) := by
    funext a; apply Fin.ext
    match a with
    | ⟨0, _⟩ => show win0_10.index t (0 : Fin 2) * 42 + 1 * k.val = k.val; omega
    | ⟨1, _⟩ => show win0_10.index t (1 : Fin 2) * 128 + 1 * e.val = e.val; omega
  rw [he]; exact V_main_v9_at m c k e
/-- Weight band 11, whole at every point. -/
theorem blk11_at (c : Dev nD) (t : Fin cfg0.N) (k : Fin 1) (e : Fin 128) :
    (iblk m c 11 t : S1x128.Idx → EReal) (ix2 k e) = (m ((c : Thread nD τ).loc main_arg1)) (ix2 (⟨108 + k.val, by have := k.isLt; omega⟩ : Fin 115) e) := by
  obtain ⟨a0, a1, b0, b1, c0, c1, d0, d1⟩ := idxW t
  show (V m c main_v10 : S1x128.Idx → EReal) (((cfg0.win 11).blk t).view.emb (ix2 k e)) = _
  have he : ((cfg0.win 11).blk t).view.emb (ix2 k e) = (ix2 k e : S1x128.Idx) := by
    funext a; apply Fin.ext
    match a with
    | ⟨0, _⟩ => show win0_11.index t (0 : Fin 2) * 1 + 1 * k.val = k.val; omega
    | ⟨1, _⟩ => show win0_11.index t (1 : Fin 2) * 128 + 1 * e.val = e.val; omega
  rw [he]; exact V_main_v10_at m c k e
/-- Weight band 12, whole at every point. -/
theorem blk12_at (c : Dev nD) (t : Fin cfg0.N) (k : Fin 6) (e : Fin 128) :
    (iblk m c 12 t : S6x128.Idx → EReal) (ix2 k e) = (m ((c : Thread nD τ).loc main_arg1)) (ix2 (⟨109 + k.val, by have := k.isLt; omega⟩ : Fin 115) e) := by
  obtain ⟨a0, a1, b0, b1, c0, c1, d0, d1⟩ := idxW t
  show (V m c main_v11 : S6x128.Idx → EReal) (((cfg0.win 12).blk t).view.emb (ix2 k e)) = _
  have he : ((cfg0.win 12).blk t).view.emb (ix2 k e) = (ix2 k e : S6x128.Idx) := by
    funext a; apply Fin.ext
    match a with
    | ⟨0, _⟩ => show win0_12.index t (0 : Fin 2) * 6 + 1 * k.val = k.val; omega
    | ⟨1, _⟩ => show win0_12.index t (1 : Fin 2) * 128 + 1 * e.val = e.val; omega
  rw [he]; exact V_main_v11_at m c k e

/-! ## What a point writes back, the cover, the final array -/

/-- WHAT POINT `t` WRITES BACK is tile `t` of `G` of the arguments. -/
theorem flushed13_eq (c : Dev nD) (t : Fin cfg0.N) :
    (dats m 0 c).flushed 13 t = ((cfg0.win 13).blk t).view.read (Elt Ideal) (Gm m c) := by
  show (cfg0.win 13).cut (grid0.coords t) ((dats m 0 c).after 13 t) = _
  rw [after13]
  unfold tileOf
  rw [View.canon_unit_zero hz4]
  funext j
  obtain ⟨u, p, q, e, rfl⟩ : ∃ (u : Fin 1) (p q : Fin 64) (e : Fin 128), j = ix4 u p q e := ⟨j 0, j 1, j 2, j 3, eq_ix4 j⟩
  refine (stored_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) u p q e).trans ?_
  obtain ⟨o0, o3, o1, o2⟩ := idxO t
  have hp := p.isLt
  have hq := q.isLt
  have hPlt : win0_13.index t (1 : Fin 4) * 64 + p.val < 1024 := by omega
  have hQlt : win0_13.index t (2 : Fin 4) * 64 + q.val < 1024 := by omega
  show _ = Gm m c (((cfg0.win 13).blk t).view.emb (ix4 u p q e))
  have ho : ((cfg0.win 13).blk t).view.emb (ix4 u p q e)
      = (ix4 0 (⟨win0_13.index t (1 : Fin 4) * 64 + p.val, hPlt⟩ : Fin 1024) (⟨win0_13.index t (2 : Fin 4) * 64 + q.val, hQlt⟩ : Fin 1024) e : S1x1024x1024x128.Idx) := by
    funext a; apply Fin.ext
    match a with
    | ⟨0, _⟩ => show win0_13.index t (0 : Fin 4) * 1 + 1 * u.val = 0; have := u.isLt; omega
    | ⟨1, _⟩ => show win0_13.index t (1 : Fin 4) * 64 + 1 * p.val = win0_13.index t (1 : Fin 4) * 64 + p.val; omega
    | ⟨2, _⟩ => show win0_13.index t (2 : Fin 4) * 64 + 1 * q.val = win0_13.index t (2 : Fin 4) * 64 + q.val; omega
    | ⟨3, _⟩ => show win0_13.index t (3 : Fin 4) * 128 + 1 * e.val = e.val; omega
  rw [ho]
  unfold Gm
  rw [G_apply]
  rw [blk0_at m c t p (⟨win0_13.index t (1 : Fin 4) * 64 + p.val, hPlt⟩ : Fin 1024) rfl, blk1_at m c t p (⟨win0_13.index t (1 : Fin 4) * 64 + p.val, hPlt⟩ : Fin 1024) rfl, blk2_at m c t p (⟨win0_13.index t (1 : Fin 4) * 64 + p.val, hPlt⟩ : Fin 1024) rfl, blk3_at m c t p (⟨win0_13.index t (1 : Fin 4) * 64 + p.val, hPlt⟩ : Fin 1024) rfl,
    blk4_at m c t q (⟨win0_13.index t (2 : Fin 4) * 64 + q.val, hQlt⟩ : Fin 1024) rfl, blk5_at m c t q (⟨win0_13.index t (2 : Fin 4) * 64 + q.val, hQlt⟩ : Fin 1024) rfl, blk6_at m c t q (⟨win0_13.index t (2 : Fin 4) * 64 + q.val, hQlt⟩ : Fin 1024) rfl, blk7_at m c t q (⟨win0_13.index t (2 : Fin 4) * 64 + q.val, hQlt⟩ : Fin 1024) rfl]
  have f8 : (fun k : Fin 42 => (iblk m c 8 t : S1x64x64x42.Idx → EReal) (ix4 0 p q k))
      = fun k => (m ((c : Thread nD τ).loc main_arg0)) (ix4 0 (⟨win0_13.index t (1 : Fin 4) * 64 + p.val, hPlt⟩ : Fin 1024) (⟨win0_13.index t (2 : Fin 4) * 64 + q.val, hQlt⟩ : Fin 1024) k) :=
    funext fun k => blk8_at m c t p q k (⟨win0_13.index t (1 : Fin 4) * 64 + p.val, hPlt⟩ : Fin 1024) (⟨win0_13.index t (2 : Fin 4) * 64 + q.val, hQlt⟩ : Fin 1024) rfl rfl
  have f9 : (fun k : Fin 66 => (iblk m c 9 t : S66x128.Idx → EReal) (ix2 k e)) = fun k => (m ((c : Thread nD τ).loc main_arg1)) (ix2 (⟨k.val, by omega⟩ : Fin 115) e) :=
    funext fun k => blk9_at m c t k e
  have f10 : (fun k : Fin 42 => (iblk m c 10 t : S42x128.Idx → EReal) (ix2 k e)) = fun k => (m ((c : Thread nD τ).loc main_arg1)) (ix2 (⟨66 + k.val, by omega⟩ : Fin 115) e) :=
    funext fun k => blk10_at m c t k e
  have f11 : (iblk m c 11 t : S1x128.Idx → EReal) (ix2 0 e) = (m ((c : Thread nD τ).loc main_arg1)) (ix2 (⟨108, by omega⟩ : Fin 115) e) :=
    blk11_at m c t 0 e
  have f12 : (fun k : Fin 6 => (iblk m c 12 t : S6x128.Idx → EReal) (ix2 k e)) = fun k => (m ((c : Thread nD τ).loc main_arg1)) (ix2 (⟨109 + k.val, by omega⟩ : Fin 115) e) :=
    funext fun k => blk12_at m c t k e
  rw [f8, f9, f10, f11, f12]

/-- An entry of the result array is in point `t`'s tile iff each coordinate is in the tile's range on its axis. -/
theorem mem_blk13 (t : Fin cfg0.N) (i : S1x1024x1024x128.Idx) :
    i ∈ ((cfg0.win 13).blk t).view.set
      ↔ ∀ a : Fin 4, win0_13.index t a * S1x64x64x128.size a ≤ (i a).val ∧ (i a).val < win0_13.index t a * S1x64x64x128.size a + S1x64x64x128.size a := by
  show i ∈ ((View.whole main_v12).slice (win0_13.rect t)).set ↔ _
  rw [View.set_slice_whole, Rect.mem_set_unit]
  exact Iff.rfl

/-- The tiles cover the result array. -/
theorem cover13 (i : S1x1024x1024x128.Idx) : ∃ t : Fin cfg0.N, (cfg0.win 13).flush t = true ∧ i ∈ ((cfg0.win 13).blk t).view.set := by
  have h0 : (i 0).val < 1 := (i 0).isLt
  have h1 : (i 1).val < 1024 := (i 1).isLt
  have h2 : (i 2).val < 1024 := (i 2).isLt
  have h3 : (i 3).val < 128 := (i 3).isLt
  obtain ⟨t, t1, t2⟩ := idx_onto ⟨(i 1).val / 64, by omega⟩ ⟨(i 2).val / 64, by omega⟩
  obtain ⟨o0, o3, -, -⟩ := idxO t
  have q1 : win0_13.index t (1 : Fin 4) = (i 1).val / 64 := t1
  have q2 : win0_13.index t (2 : Fin 4) = (i 2).val / 64 := t2
  refine ⟨t, flush0_13 t, ?_⟩
  rw [mem_blk13]
  intro a
  match a with
  | ⟨0, _⟩ => show win0_13.index t (0 : Fin 4) * 1 ≤ (i 0).val ∧ (i 0).val < win0_13.index t (0 : Fin 4) * 1 + 1; omega
  | ⟨1, _⟩ => show win0_13.index t (1 : Fin 4) * 64 ≤ (i 1).val ∧ (i 1).val < win0_13.index t (1 : Fin 4) * 64 + 64; omega
  | ⟨2, _⟩ => show win0_13.index t (2 : Fin 4) * 64 ≤ (i 2).val ∧ (i 2).val < win0_13.index t (2 : Fin 4) * 64 + 64; omega
  | ⟨3, _⟩ => show win0_13.index t (3 : Fin 4) * 128 ≤ (i 3).val ∧ (i 3).val < win0_13.index t (3 : Fin 4) * 128 + 128; omega

/-- THE RESULT ARRAY after the run is `G` of the arguments. -/
theorem final13 (c : Dev nD) : (dats m 0 c).arrAt 13 cfg0.N = Gm m c :=
  (dats m 0 c).arrAt_eq_of_cover 13 (Gm m c) (fun t _ => flushed13_eq m c t) cover13

/-- The run, read: the result array at `G` of the arguments, the arguments unchanged. -/
theorem run_value : θ_run defs (onTc (τ := τ) (main (F := Ideal))) ⟨m, fun _ => 0, ρ⟩ (fun r => ∀ c : Dev nD,
      r.2.mem ((c.tc : Thread nD τ).loc main_v12) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 13).trans (final13 m c),
      ((h c).1 8).trans (((dats m 0 c).arrAt_in 8 rfl _).trans ((A_eq m c 8).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.KernelIdeal.Hand

end
-- ==== Proof.RefSide.lean ====
/-
  The reference's result is `G` of its arguments.

  The reference builds the 115 features of every pair, joins them along a last axis and contracts that axis with
  the weight matrix: entry (0, i, j, c) is the sum over all 115 feature rows.  Split into the four stretches of the
  join (66, 42, 1, 6), each stretch read through the join at its own piece, and each piece read back through the
  reference's broadcasts, clips and selects to the ids of tokens i and j, that sum is `tileAt`.
-/
import proofs.«116782_j43044162241209_2_alg».proof.Proof.Gen.ReferenceIdeal.Run
import proofs.«116782_j43044162241209_2_alg».proof.Proof.Gen.ReferenceIdeal.Read
import proofs.«116782_j43044162241209_2_alg».proof.Proof.SpecG
import Idealize.ShloMosaic.Lib.Pipeline.Value

open scoped BigOperators

noncomputable section

set_option maxRecDepth 16384

namespace Cert.ReferenceIdeal.RefValue

open Cert.ReferenceIdeal Cert.ReferenceIdeal.Gen Cert.ReferenceIdeal.Read Idealize.ShloMosaic Idealize.ShloMosaic.ValueIdx Cert.PairSpec

/-- The residue one-hot at pair (P, Q), entry k. -/
theorem v19_at (x2 x5 : (⟨S1x1024, .i32⟩ : BufTy).Contents (Elt Ideal)) (u : Fin 1) (P Q : Fin 1024) (k : Fin 66) :
    val_main_v19 (F := Ideal) x2 x5 (ix4 u P Q k) = hot (dRes (x2 (ix2 0 P)) (x2 (ix2 0 Q)) (x5 (ix2 0 P)) (x5 (ix2 0 Q))) k.val := by
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_c_apply, val_main_v15_apply, val_main_v16_apply, val_main_c_0_apply, val_main_c_1_apply, val_main_call0_v0_apply, val_main_call0_v1_apply, val_main_call0_v2_apply, val_main_call0_v3_apply, val_main_call0_v4_apply, val_main_v17_apply, val_main_c_2_apply, val_main_call1_v0_apply, val_main_call1_v1_apply, val_main_v18_apply, val_main_call2_v0_apply, val_main_call2_v1_apply, val_main_call2_v2_apply, val_main_call2_v3_apply, val_main_call2_v4_apply, val_main_v19_apply, val_main_v20_apply, val_main_v21_apply, val_main_v22_apply, val_main_v23_apply, val_main_v24_apply, val_main_c_3_apply, val_main_v25_apply, val_main_v26_apply, val_main_c_4_apply, val_main_c_5_apply, val_main_call3_v0_apply, val_main_call3_v1_apply, val_main_call3_v2_apply, val_main_call3_v3_apply, val_main_call3_v4_apply, val_main_v27_apply, val_main_v28_apply, val_main_v29_apply, val_main_c_6_apply, val_main_call4_v0_apply, val_main_call4_v1_apply, val_main_v30_apply, val_main_call5_v0_apply, val_main_call5_v1_apply, val_main_call5_v2_apply, val_main_call5_v3_apply, val_main_call5_v4_apply, val_main_v31_apply, val_main_v32_apply, val_main_v33_apply]
  have e1 : idx_main_v0 (idx_main_v2 (idx_main_call2_v0 (idx_main_call2_v2 (ix4 u P Q k)))) = ix2 0 P := funext fun a => Fin.ext (by match a with | ⟨0, _⟩ => rfl | ⟨1, _⟩ => rfl)
  have e2 : idx_main_v1 (idx_main_v3 (idx_main_call2_v0 (idx_main_call2_v2 (ix4 u P Q k)))) = ix2 0 Q := funext fun a => Fin.ext (by match a with | ⟨0, _⟩ => rfl | ⟨1, _⟩ => rfl)
  have e3 : idx_main_v10 (idx_main_v12 (idx_main_call2_v0 (idx_main_call2_v2 (ix4 u P Q k)))) = ix2 0 P := funext fun a => Fin.ext (by match a with | ⟨0, _⟩ => rfl | ⟨1, _⟩ => rfl)
  have e4 : idx_main_v11 (idx_main_v13 (idx_main_call2_v0 (idx_main_call2_v2 (ix4 u P Q k)))) = ix2 0 Q := funext fun a => Fin.ext (by match a with | ⟨0, _⟩ => rfl | ⟨1, _⟩ => rfl)
  rw [e1, e2, e3, e4]
  rfl

/-- The chain one-hot at pair (P, Q), entry k. -/
theorem v31_at (x2 x3 x4 : (⟨S1x1024, .i32⟩ : BufTy).Contents (Elt Ideal)) (u : Fin 1) (P Q : Fin 1024) (k : Fin 6) :
    val_main_v31 (F := Ideal) x2 x3 x4 (ix4 u P Q k)
      = hot (dChain (x2 (ix2 0 P)) (x2 (ix2 0 Q)) (x4 (ix2 0 P)) (x4 (ix2 0 Q)) (x3 (ix2 0 P)) (x3 (ix2 0 Q))) k.val := by
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_c_apply, val_main_v15_apply, val_main_v16_apply, val_main_c_0_apply, val_main_c_1_apply, val_main_call0_v0_apply, val_main_call0_v1_apply, val_main_call0_v2_apply, val_main_call0_v3_apply, val_main_call0_v4_apply, val_main_v17_apply, val_main_c_2_apply, val_main_call1_v0_apply, val_main_call1_v1_apply, val_main_v18_apply, val_main_call2_v0_apply, val_main_call2_v1_apply, val_main_call2_v2_apply, val_main_call2_v3_apply, val_main_call2_v4_apply, val_main_v19_apply, val_main_v20_apply, val_main_v21_apply, val_main_v22_apply, val_main_v23_apply, val_main_v24_apply, val_main_c_3_apply, val_main_v25_apply, val_main_v26_apply, val_main_c_4_apply, val_main_c_5_apply, val_main_call3_v0_apply, val_main_call3_v1_apply, val_main_call3_v2_apply, val_main_call3_v3_apply, val_main_call3_v4_apply, val_main_v27_apply, val_main_v28_apply, val_main_v29_apply, val_main_c_6_apply, val_main_call4_v0_apply, val_main_call4_v1_apply, val_main_v30_apply, val_main_call5_v0_apply, val_main_call5_v1_apply, val_main_call5_v2_apply, val_main_call5_v3_apply, val_main_call5_v4_apply, val_main_v31_apply, val_main_v32_apply, val_main_v33_apply]
  have e1 : idx_main_v0 (idx_main_v2 (idx_main_call5_v0 (idx_main_call5_v2 (ix4 u P Q k)))) = ix2 0 P := funext fun a => Fin.ext (by match a with | ⟨0, _⟩ => rfl | ⟨1, _⟩ => rfl)
  have e2 : idx_main_v1 (idx_main_v3 (idx_main_call5_v0 (idx_main_call5_v2 (ix4 u P Q k)))) = ix2 0 Q := funext fun a => Fin.ext (by match a with | ⟨0, _⟩ => rfl | ⟨1, _⟩ => rfl)
  have e3 : idx_main_v5 (idx_main_v7 (idx_main_call5_v0 (idx_main_call5_v2 (ix4 u P Q k)))) = ix2 0 P := funext fun a => Fin.ext (by match a with | ⟨0, _⟩ => rfl | ⟨1, _⟩ => rfl)
  have e4 : idx_main_v6 (idx_main_v8 (idx_main_call5_v0 (idx_main_call5_v2 (ix4 u P Q k)))) = ix2 0 Q := funext fun a => Fin.ext (by match a with | ⟨0, _⟩ => rfl | ⟨1, _⟩ => rfl)
  have e5 : idx_main_v20 (idx_main_v22 (idx_main_call5_v0 (idx_main_call5_v2 (ix4 u P Q k)))) = ix2 0 P := funext fun a => Fin.ext (by match a with | ⟨0, _⟩ => rfl | ⟨1, _⟩ => rfl)
  have e6 : idx_main_v21 (idx_main_v23 (idx_main_call5_v0 (idx_main_call5_v2 (ix4 u P Q k)))) = ix2 0 Q := funext fun a => Fin.ext (by match a with | ⟨0, _⟩ => rfl | ⟨1, _⟩ => rfl)
  rw [e1, e2, e3, e4, e5, e6]
  rfl

/-- The same-entity entry at pair (P, Q). -/
theorem v33_at (x4 : (⟨S1x1024, .i32⟩ : BufTy).Contents (Elt Ideal)) (u : Fin 1) (P Q : Fin 1024) (z : Fin 1) :
    val_main_v33 (F := Ideal) x4 (ix4 u P Q z) = bit (IntOp.cmpi .eq (x4 (ix2 0 P)) (x4 (ix2 0 Q))) := by
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_c_apply, val_main_v15_apply, val_main_v16_apply, val_main_c_0_apply, val_main_c_1_apply, val_main_call0_v0_apply, val_main_call0_v1_apply, val_main_call0_v2_apply, val_main_call0_v3_apply, val_main_call0_v4_apply, val_main_v17_apply, val_main_c_2_apply, val_main_call1_v0_apply, val_main_call1_v1_apply, val_main_v18_apply, val_main_call2_v0_apply, val_main_call2_v1_apply, val_main_call2_v2_apply, val_main_call2_v3_apply, val_main_call2_v4_apply, val_main_v19_apply, val_main_v20_apply, val_main_v21_apply, val_main_v22_apply, val_main_v23_apply, val_main_v24_apply, val_main_c_3_apply, val_main_v25_apply, val_main_v26_apply, val_main_c_4_apply, val_main_c_5_apply, val_main_call3_v0_apply, val_main_call3_v1_apply, val_main_call3_v2_apply, val_main_call3_v3_apply, val_main_call3_v4_apply, val_main_v27_apply, val_main_v28_apply, val_main_v29_apply, val_main_c_6_apply, val_main_call4_v0_apply, val_main_call4_v1_apply, val_main_v30_apply, val_main_call5_v0_apply, val_main_call5_v1_apply, val_main_call5_v2_apply, val_main_call5_v3_apply, val_main_call5_v4_apply, val_main_v31_apply, val_main_v32_apply, val_main_v33_apply]
  have e1 : idx_main_v5 (idx_main_v7 (idx_main_v32 (ix4 u P Q z))) = ix2 0 P := funext fun a => Fin.ext (by match a with | ⟨0, _⟩ => rfl | ⟨1, _⟩ => rfl)
  have e2 : idx_main_v6 (idx_main_v8 (idx_main_v32 (ix4 u P Q z))) = ix2 0 Q := funext fun a => Fin.ext (by match a with | ⟨0, _⟩ => rfl | ⟨1, _⟩ => rfl)
  rw [e1, e2]
  rfl

/-- The weight row a feature row meets. -/
theorem ridx_eq (u : Fin 1) (P Q : Fin 1024) (e : Fin 128) (f : Fin 115) : ridx_main_v35 (ix4 u P Q e) f = ix2 f e :=
  funext fun a => Fin.ext (by match a with | ⟨0, _⟩ => rfl | ⟨1, _⟩ => rfl)

variable (x0 : (⟨S1x1024x1024x42, .f32⟩ : BufTy).Contents (Elt Ideal)) (x2 x3 x4 x5 : (⟨S1x1024, .i32⟩ : BufTy).Contents (Elt Ideal))

/-- Feature rows 0 … 65 of the join are the residue one-hot. -/
theorem join_pos (u : Fin 1) (P Q : Fin 1024) (e : Fin 128) (k : Fin 66) :
    val_main_v34 (F := Ideal) x0 x2 x3 x4 x5 (lidx_main_v35 (ix4 u P Q e) ⟨k.val, by omega⟩) = val_main_v19 (F := Ideal) x2 x5 (ix4 u P Q k) := by
  unfold val_main_v34
  exact concatenate_apply_piece (t := S1x1024x1024x115) (3 : Fin 4) ([⟨S1x1024x1024x66, val_main_v19 (F := Ideal) x2 x5⟩, ⟨S1x1024x1024x42, x0⟩, ⟨S1x1024x1024x1, val_main_v33 (F := Ideal) x4⟩, ⟨S1x1024x1024x6, val_main_v31 (F := Ideal) x2 x3 x4⟩] : List ((s : Shape) × (s.Idx → Elt Ideal .f32))) concatenates_S1x1024x1024x66_S1x1024x1024x42_S1x1024x1024x1_S1x1024x1024x6_S1x1024x1024x115_d3 _ 0 (show (0 : Nat) < 4 from by decide) S1x1024x1024x66 _ rfl rfl 0 rfl (ix4 u P Q k)
    (fun b hb => by
      match b, hb with
      | ⟨0, _⟩, _ => rfl
      | ⟨1, _⟩, _ => rfl
      | ⟨2, _⟩, _ => rfl
      | ⟨3, _⟩, hb => exact absurd rfl hb)
    (by show 0 + k.val = k.val; omega)

/-- Rows 66 … 107 are the given pair features. -/
theorem join_tok (u : Fin 1) (P Q : Fin 1024) (e : Fin 128) (k : Fin 42) :
    val_main_v34 (F := Ideal) x0 x2 x3 x4 x5 (lidx_main_v35 (ix4 u P Q e) ⟨66 + k.val, by omega⟩) = x0 (ix4 u P Q k) := by
  unfold val_main_v34
  exact concatenate_apply_piece (t := S1x1024x1024x115) (3 : Fin 4) ([⟨S1x1024x1024x66, val_main_v19 (F := Ideal) x2 x5⟩, ⟨S1x1024x1024x42, x0⟩, ⟨S1x1024x1024x1, val_main_v33 (F := Ideal) x4⟩, ⟨S1x1024x1024x6, val_main_v31 (F := Ideal) x2 x3 x4⟩] : List ((s : Shape) × (s.Idx → Elt Ideal .f32))) concatenates_S1x1024x1024x66_S1x1024x1024x42_S1x1024x1024x1_S1x1024x1024x6_S1x1024x1024x115_d3 _ 1 (show (1 : Nat) < 4 from by decide) S1x1024x1024x42 _ rfl rfl 66 rfl (ix4 u P Q k)
    (fun b hb => by
      match b, hb with
      | ⟨0, _⟩, _ => rfl
      | ⟨1, _⟩, _ => rfl
      | ⟨2, _⟩, _ => rfl
      | ⟨3, _⟩, hb => exact absurd rfl hb)
    (by show 66 + k.val = 66 + k.val; rfl)

/-- Row 108 is the same-entity entry. -/
theorem join_ent (u : Fin 1) (P Q : Fin 1024) (e : Fin 128) :
    val_main_v34 (F := Ideal) x0 x2 x3 x4 x5 (lidx_main_v35 (ix4 u P Q e) ⟨108, by omega⟩) = val_main_v33 (F := Ideal) x4 (ix4 u P Q 0) := by
  unfold val_main_v34
  exact concatenate_apply_piece (t := S1x1024x1024x115) (3 : Fin 4) ([⟨S1x1024x1024x66, val_main_v19 (F := Ideal) x2 x5⟩, ⟨S1x1024x1024x42, x0⟩, ⟨S1x1024x1024x1, val_main_v33 (F := Ideal) x4⟩, ⟨S1x1024x1024x6, val_main_v31 (F := Ideal) x2 x3 x4⟩] : List ((s : Shape) × (s.Idx → Elt Ideal .f32))) concatenates_S1x1024x1024x66_S1x1024x1024x42_S1x1024x1024x1_S1x1024x1024x6_S1x1024x1024x115_d3 _ 2 (show (2 : Nat) < 4 from by decide) S1x1024x1024x1 _ rfl rfl 108 rfl (ix4 u P Q 0)
    (fun b hb => by
      match b, hb with
      | ⟨0, _⟩, _ => rfl
      | ⟨1, _⟩, _ => rfl
      | ⟨2, _⟩, _ => rfl
      | ⟨3, _⟩, hb => exact absurd rfl hb)
    (by show 108 + 0 = 108; rfl)

/-- Rows 109 … 114 are the chain one-hot. -/
theorem join_chain (u : Fin 1) (P Q : Fin 1024) (e : Fin 128) (k : Fin 6) :
    val_main_v34 (F := Ideal) x0 x2 x3 x4 x5 (lidx_main_v35 (ix4 u P Q e) ⟨109 + k.val, by omega⟩) = val_main_v31 (F := Ideal) x2 x3 x4 (ix4 u P Q k) := by
  unfold val_main_v34
  exact concatenate_apply_piece (t := S1x1024x1024x115) (3 : Fin 4) ([⟨S1x1024x1024x66, val_main_v19 (F := Ideal) x2 x5⟩, ⟨S1x1024x1024x42, x0⟩, ⟨S1x1024x1024x1, val_main_v33 (F := Ideal) x4⟩, ⟨S1x1024x1024x6, val_main_v31 (F := Ideal) x2 x3 x4⟩] : List ((s : Shape) × (s.Idx → Elt Ideal .f32))) concatenates_S1x1024x1024x66_S1x1024x1024x42_S1x1024x1024x1_S1x1024x1024x6_S1x1024x1024x115_d3 _ 3 (show (3 : Nat) < 4 from by decide) S1x1024x1024x6 _ rfl rfl 109 rfl (ix4 u P Q k)
    (fun b hb => by
      match b, hb with
      | ⟨0, _⟩, _ => rfl
      | ⟨1, _⟩, _ => rfl
      | ⟨2, _⟩, _ => rfl
      | ⟨3, _⟩, hb => exact absurd rfl hb)
    (by show 109 + k.val = 109 + k.val; rfl)

/-- THE REFERENCE IS `G`: the contraction over all 115 feature rows, band by band. -/
theorem ref_eq (x1 : (⟨S115x128, .f32⟩ : BufTy).Contents (Elt Ideal)) :
    val_main_v35 (F := Ideal) x0 x1 x2 x3 x4 x5 = G x0 x1 x2 x3 x4 x5 := by
  funext i
  obtain ⟨u, P, Q, e, rfl⟩ : ∃ (u : Fin 1) (P Q : Fin 1024) (e : Fin 128), i = ix4 u P Q e := ⟨i 0, i 1, i 2, i 3, eq_ix4 i⟩
  rw [val_main_v35_apply, sum_bands, G_apply]
  unfold tileAt
  refine congrArg₂ (· + ·) (congrArg₂ (· + ·) (congrArg₂ (· + ·) (Finset.sum_congr rfl fun k _ => ?_) (Finset.sum_congr rfl fun k _ => ?_))
    (Finset.sum_congr rfl fun k _ => ?_)) ?_
  · rw [join_pos, v19_at, ridx_eq]
  · rw [join_tok, ridx_eq]
    have hu : u = 0 := Subsingleton.elim _ _
    rw [hu]
  · rw [join_chain, v31_at, ridx_eq]
  · rw [join_ent, v33_at, ridx_eq]

end Cert.ReferenceIdeal.RefValue

end
-- ==== Proof.lean ====
/-
  The pairwise relative-position embedding: the kernel against its reference.

  The kernel tiles the 1024 x 1024 pairs into 64 x 64 tiles.  For a tile it computes, from the eight id columns, the
  residue bin and the chain bin of every pair, turns each into a one-hot row, and adds three small matrix products
  (residue one-hot by the first 66 weight rows, the 42 pair features by the next 42, chain one-hot by the last 6) and
  the same-entity bit times weight row 108.  The reference joins the same 115 features into one row per pair and
  contracts it with the whole weight matrix.  Over the extended reals the two are one function of the arguments:
  a sum over 115 rows splits into its four stretches, a change of float format is the identity, and a bit widened
  and read signed is the bit read unsigned.  No entry needs to be finite.

  The frames: the word-level kernel, the idealized kernel (each run by hand: the four id columns are each read by
  two windows, so the launch deals each column half and half) and the reference (its generated run).  The ideal
  pass rewrote nothing, so the idealization claim has no conjunct.
-/
import proofs.«116782_j43044162241209_2_alg».proof.Defs
import proofs.«116782_j43044162241209_2_alg».proof.Proof.Gen.Kernel
import proofs.«116782_j43044162241209_2_alg».proof.Proof.Gen.KernelIdeal
import proofs.«116782_j43044162241209_2_alg».proof.Proof.Gen.ReferenceIdeal
import proofs.«116782_j43044162241209_2_alg».proof.Proof.Gen.Pre_finite_inputs
import proofs.«116782_j43044162241209_2_alg».proof.Proof.KLaunch
import proofs.«116782_j43044162241209_2_alg».proof.Proof.KIValue
import proofs.«116782_j43044162241209_2_alg».proof.Proof.RefSide

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at `G` of the arguments, which agree. -/
theorem algebraic : Cert.algebraic_KernelIdeal_ReferenceIdeal := by
  intro m ρ m' ρ' _ hagree
  refine ⟨fun c => Cert.KernelIdeal.Hand.Gm m c, Cert.KernelIdeal.Hand.run_value m ρ, ?_⟩
  refine (θ_run Cert.ReferenceIdeal.defs _ _).mono (fun _ h c => ⟨?_, (h c).2⟩)
    (Cert.ReferenceIdeal.Value.run (F := Ideal) m' ρ')
  obtain ⟨a0, a1, a2, a3, a4, a5⟩ := hagree c
  rw [(h c).1, Cert.ReferenceIdeal.Read.val_main_v35_eq, Cert.ReferenceIdeal.RefValue.ref_eq, a0, a1, a2, a3, a4, a5]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
